-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S2x262144 : Shape := ⟨2, ![2, 262144]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x256 .f32) (main_arg1 : FVec F S8192x256 .f32) (main_arg2 : FVec F S8192x8192 .f32) (main_arg3 : IVec S2x262144 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192x256 : Shape := ⟨2, ![8192, 256]⟩
abbrev S8192x8192 : Shape := ⟨2, ![8192, 8192]⟩
abbrev S2x262144 : Shape := ⟨2, ![2, 262144]⟩
abbrev S1x1 : Shape := ⟨2, ![1, 1]⟩
abbrev S1024x256 : Shape := ⟨2, ![1024, 256]⟩
abbrev S1024 : Shape := ⟨1, ![1024]⟩
abbrev S1024x1 : Shape := ⟨2, ![1024, 1]⟩
abbrev S1 : Shape := ⟨1, ![1]⟩
abbrev S_ : Shape := ⟨0, ![]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S512x1024 : Shape := ⟨2, ![512, 1024]⟩
abbrev S512 : Shape := ⟨1, ![512]⟩
abbrev S512x1 : Shape := ⟨2, ![512, 1]⟩

abbrev nBuf : Space → Nat
  | .hbm => 50
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .hbm, ⟨3, _⟩ => ⟨S2x262144, .i32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x262144, .i32⟩
  | .hbm, ⟨13, _⟩ => ⟨S262144, .i32⟩
  | .hbm, ⟨14, _⟩ => ⟨S1x262144, .i32⟩
  | .hbm, ⟨15, _⟩ => ⟨S262144, .i32⟩
  | .hbm, ⟨16, _⟩ => ⟨S_, .f32⟩
  | .hbm, ⟨17, _⟩ => ⟨S8192x8192, .f32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x1, .i32⟩
  | .hbm, ⟨34, _⟩ => ⟨S262144x2, .i32⟩
  | .hbm, ⟨35, _⟩ => ⟨S_, .f32⟩
  | .hbm, ⟨36, _⟩ => ⟨S262144, .f32⟩
  | .hbm, ⟨37, _⟩ => ⟨S8192x8192, .f32⟩
  | .hbm, ⟨38, _⟩ => ⟨S1x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x1, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

class Facts₀ : Prop where
  inb_S1x1_S1x1_0_0 : ∀ a, (![0, 0] : Fin 2 → Nat) a + S1x1.size a ≤ S1x1.size a
  h_S1x1 : 0 < S1x1.numel
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  reduces_S1024x1_S1 : S1024x1.Reduces [0] S1
  shapeCasts_S1_S1x1 : S1.ShapeCasts S1x1
  broadcasts_S1024x1_S1024x256 : S1024x1.Broadcasts S1024x256
  shapeCasts_S1x1_S1x1 : S1x1.ShapeCasts S1x1
  shapeCasts_S1x1_S_ : S1x1.ShapeCasts S_
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  reduces_S512x1_S1 : S512x1.Reduces [0] S1
  scatter_S8192x8192_S262144x2_S262144_n_01_01_1_wf : ScatterDims.WF S8192x8192 S262144x2 S262144 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x8192.size a
  hwx1_0 : ∀ i : grid1.Coords, EltTy.bits .f32 = 32 ∨ (Rect.block (s := S8192x8192) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x8192.size a
  hwx1_1 : ∀ i : grid1.Coords, EltTy.bits .f32 = 32 ∨ (Rect.block (s := S8192x8192) S512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S2x262144 : Shape := ⟨2, ![2, 262144]⟩
abbrev S_ : Shape := ⟨0, ![]⟩
abbrev S8192 : Shape := ⟨1, ![8192]⟩
abbrev S8192x1 : Shape := ⟨2, ![8192, 1]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩

abbrev nBuf : Space → Nat
  | .hbm => 97
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .hbm, ⟨3, _⟩ => ⟨S2x262144, .i32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x256, .f32⟩
  | .hbm, ⟨17, _⟩ => ⟨S8192x256, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S_, .f32⟩
  | .hbm, ⟨28, _⟩ => ⟨S8192, .f32⟩
  | .hbm, ⟨29, _⟩ => ⟨S8192x256, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S1x262144, .i32⟩
  | .hbm, ⟨52, _⟩ => ⟨S262144, .i32⟩
  | .hbm, ⟨53, _⟩ => ⟨S1x262144, .i32⟩
  | .hbm, ⟨54, _⟩ => ⟨S262144, .i32⟩
  | .hbm, ⟨55, _⟩ => ⟨S_, .i32⟩
  | .hbm, ⟨56, _⟩ => ⟨S262144, .i32⟩
  | .hbm, ⟨57, _⟩ => ⟨S262144, .i1⟩
  | .hbm, ⟨58, _⟩ => ⟨S_, .i32⟩
  | .hbm, ⟨59, _⟩ => ⟨S262144, .i32⟩
  | .hbm, ⟨60, _⟩ => ⟨S262144, .i32⟩
  | .hbm, ⟨61, _⟩ => ⟨S262144, .i32⟩
  | .hbm, ⟨62, _⟩ => ⟨S_, .i32⟩
  | .hbm, ⟨63, _⟩ => ⟨S262144, .i32⟩
  | .hbm, ⟨64, _⟩ => ⟨S262144, .i1⟩
  | .hbm, ⟨65, _⟩ => ⟨S_, .i32⟩
  | .hbm, ⟨66, _⟩ => ⟨S262144, .i32⟩
  | .hbm, ⟨67, _⟩ => ⟨S262144, .i32⟩
  | .hbm, ⟨68, _⟩ => ⟨S262144, .i32⟩
  | .hbm, ⟨69, _⟩ => ⟨S262144x1, .i32⟩
  | .hbm, ⟨70, _⟩ => ⟨S262144x1, .i32⟩
  | .hbm, ⟨71, _⟩ => ⟨S262144x2, .i32⟩
  | .hbm, ⟨72, _⟩ => ⟨S_, .f32⟩
  | .hbm, ⟨73, _⟩ => ⟨S262144, .f32⟩
  | .hbm, ⟨74, _⟩ => ⟨S8192x8192, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S8192x8192, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_cst_11 : Ref sig .tc := ⟨.hbm, 47, rfl⟩
abbrev main_v31 : Ref sig .tc := ⟨.hbm, 48, rfl⟩
abbrev main_cst_12 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c : Ref sig .tc := ⟨.hbm, 55, rfl⟩
abbrev main_v37 : Ref sig .tc := ⟨.hbm, 56, rfl⟩
abbrev main_v38 : Ref sig .tc := ⟨.hbm, 57, rfl⟩
abbrev main_c_13 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_14 : Ref sig .tc := ⟨.hbm, 62, rfl⟩
abbrev main_v42 : Ref sig .tc := ⟨.hbm, 63, rfl⟩
abbrev main_v43 : Ref sig .tc := ⟨.hbm, 64, rfl⟩
abbrev main_c_15 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_cst_17 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_18 : Ref sig .tc := ⟨.hbm, 85, rfl⟩
abbrev main_v61 : Ref sig .tc := ⟨.hbm, 86, rfl⟩
abbrev main_cst_19 : Ref sig .tc := ⟨.hbm, 87, rfl⟩
abbrev main_v62 : Ref sig .tc := ⟨.hbm, 88, rfl⟩
abbrev main_cst_20 : Ref sig .tc := ⟨.hbm, 89, rfl⟩
abbrev main_v63 : Ref sig .tc := ⟨.hbm, 90, rfl⟩
abbrev main_cst_21 : Ref sig .tc := ⟨.hbm, 91, rfl⟩
abbrev main_v64 : Ref sig .tc := ⟨.hbm, 92, rfl⟩
abbrev main_v65 : Ref sig .tc := ⟨.hbm, 93, rfl⟩
abbrev main_cst_22 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]

class Facts₀ : Prop where
  reducesTo_S8192x256_S_d0_1 : S8192x256.ReducesTo [0, 1] S_
  h_S_ : 0 < S_.numel
  reducesTo_S8192x256_S8192_d1 : S8192x256.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S_d0_1 : S8192x8192.ReducesTo [0, 1] S_
  scatter_S8192x8192_S262144x2_S262144_n_01_01_1_wf : ScatterDims.WF S8192x8192 S262144x2 S262144 [] [0, 1] [0, 1] 1

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf

class Facts : Prop extends Facts₀ where

variable [Facts]
-- ==== Proof.KernelRun.lean ====
/-
  The kernel's run with its results named.

  The program is a node-loss region, a stretch of host operations (two quotients of the region's totals and the
  adjacency matrix built from the edge list), an interaction-loss region, and a closing stretch of host operations
  (the third quotient and the weighted total). Every weakly fair execution ends, without a fault, with each
  unscoped buffer at the contents obtained by folding those four segments over the launch memory. This module
  states that run with the four result buffers read from that final fold; the fold itself is opened elsewhere.
-/
import proofs.«126557_j34342558499116_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, without a fault, with the total, the three parts and the
    four arguments at what the fold of its segments over the launch memory leaves in their buffers; the arguments
    are never written, so they end as launched. -/
theorem run_results : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_v2) = W4 m ρ c (Proc.devRef .tc main_v2)
      ∧ r.2.mem ((c.tc : Thread nD τ).loc main_v4) = W4 m ρ c (Proc.devRef .tc main_v4)
      ∧ r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       h c _ (mem_uc main_v2 (by decide)),
       h c _ (mem_uc main_v4 (by decide)),
       h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Run

end
-- ==== Proof.LibSumBlocks.lean ====
/-
  Summing a function over `Fin (a * b)` block by block.

  The numbers below `a * b` are exactly the numbers `k * b + j` with `k < a` and `j < b`, each written in one way
  (`k` is the quotient by `b`, `j` the remainder). So a sum over all of them, in a commutative monoid, is the sum
  over the `a` blocks of `b` consecutive numbers of each block's own sum. Only commutativity and associativity of
  the addition are used: nothing is cancelled or distributed, so the statements hold in any additive commutative
  monoid, the extended reals included.
-/
import Mathlib.Algebra.BigOperators.Fin
import Mathlib.Data.Fintype.BigOperators
import Mathlib.Logic.Equiv.Fin.Basic

open scoped BigOperators

namespace Cert.LibSumBlocks

/-- The `j`-th number of the `k`-th block of `b` consecutive numbers lies below `a * b` when `k < a` and `j < b`. -/
theorem block_index_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- A sum over `Fin (a * b)` is the sum, over the `a` blocks of `b` consecutive indices, of the sums over each
    block: `∑ i, f i = ∑ k < a, ∑ j < b, f (k * b + j)`, in any additive commutative monoid. -/
theorem sum_blocks {M : Type*} [AddCommMonoid M] (a b : ℕ) (f : Fin (a * b) → M) :
    ∑ i : Fin (a * b), f i = ∑ k : Fin a, ∑ j : Fin b, f ⟨k.val * b + j.val, block_index_lt k j⟩ := by
  rw [← Equiv.sum_comp finProdFinEquiv f, Fintype.sum_prod_type]
  refine Finset.sum_congr rfl fun k _ => Finset.sum_congr rfl fun j _ => congrArg f (Fin.ext ?_)
  show j.val + b * k.val = k.val * b + j.val
  rw [Nat.mul_comm, Nat.add_comm]

/-- The same with the blocks' sums listed in the other nesting: the sum, over the position `j` inside a block, of
    the sum over the blocks. -/
theorem sum_blocks_comm {M : Type*} [AddCommMonoid M] (a b : ℕ) (f : Fin (a * b) → M) :
    ∑ i : Fin (a * b), f i = ∑ j : Fin b, ∑ k : Fin a, f ⟨k.val * b + j.val, block_index_lt k j⟩ :=
  (sum_blocks a b f).trans Finset.sum_comm

/-- `4096 = 4 * 1024`: a sum over 4096 indices, accumulated from zero one block of 1024 at a time — the blocks
    starting at 0, 1024, 2048 and 3072 — is the whole sum. -/
theorem sum_four_blocks {M : Type*} [AddCommMonoid M] (f : Fin 4096 → M) :
    ((((0 + ∑ j : Fin 1024, f ⟨j.val, by have := j.isLt; omega⟩)
          + ∑ j : Fin 1024, f ⟨1024 + j.val, by have := j.isLt; omega⟩)
        + ∑ j : Fin 1024, f ⟨2048 + j.val, by have := j.isLt; omega⟩)
      + ∑ j : Fin 1024, f ⟨3072 + j.val, by have := j.isLt; omega⟩)
    = ∑ i : Fin 4096, f i := by
  rw [zero_add]
  refine Eq.symm ((sum_blocks 4 1024 f).trans ?_)
  rw [Fin.sum_univ_four]
  refine congrArg₂ (· + ·) (congrArg₂ (· + ·) (congrArg₂ (· + ·) ?_ ?_) ?_) ?_
  · exact Finset.sum_congr rfl fun j _ => congrArg f (Fin.ext (by show 0 * 1024 + j.val = j.val; omega))
  · exact Finset.sum_congr rfl fun j _ => congrArg f (Fin.ext (by show 1 * 1024 + j.val = 1024 + j.val; omega))
  · exact Finset.sum_congr rfl fun j _ => congrArg f (Fin.ext (by show 2 * 1024 + j.val = 2048 + j.val; omega))
  · exact Finset.sum_congr rfl fun j _ => congrArg f (Fin.ext (by show 3 * 1024 + j.val = 3072 + j.val; omega))

end Cert.LibSumBlocks
-- ==== Proof.Spec.lean ====
/-
  The loss both programs compute, as one function of the argument arrays over the extended reals.

  For two [n, d] arrays P and T and two [n, n] arrays X and A the loss has three parts:
    * the mean squared difference: the sum over all entries of (P - T)², divided by the entry count;
    * one minus the Pearson correlation of corresponding rows, averaged over the rows: a row's mean is its sum divided
      by d, the correlation's denominator is the product of the two centred rows' norms plus a small constant;
    * the binary cross-entropy of the logits X against the labels A in its stable form
      max(x, 0) - x·z + log(1 + exp(-|x|)), averaged over all entries;
  and the total is the weighted sum of the three. Every float constant is kept as the f32 word both programs print.

  One program sums each of the three parts block by block: the rows of P and T in 8 blocks of 1024 rows, the entries
  of X and A in a 16 × 8 tiling by blocks of 512 × 1024, adding each block's sum to a running total that starts at
  zero. The other sums each part in one go. The two agree because a finite sum in a commutative monoid may be
  regrouped freely: only commutativity and associativity of the addition of extended reals are used, so nothing
  here needs the entries to be finite.
-/
import Idealize.ShloMosaic.PureOps.Ideal
import Idealize.ShloMosaic.PureOps.Ideal.Laws
import Idealize.ShloMosaic.Lib.ValueIdx
import proofs.«126557_j34342558499116_2_alg».proof.Proof.LibSumBlocks

noncomputable section

open scoped BigOperators

namespace Cert.Loss

open Idealize.ShloMosaic Idealize.ShloMosaic.ValueIdx Cert.LibSumBlocks

/-- An [a, b] array of extended reals. -/
abbrev Mat (a b : Nat) : Type := (⟨2, ![a, b]⟩ : Shape).Idx → EReal

/-- Row `r` of an array, as a function of the column. -/
abbrev row {a b : Nat} (M : Mat a b) (r : Fin a) : Fin b → EReal := fun k => M (ix2 r k)

/-- The sum along a row of the squared differences of two rows. -/
def rowSq {b : Nat} (p t : Fin b → EReal) : EReal := ∑ k, (p k - t k) * (p k - t k)

/-- A row's mean as both programs spell it: the row's sum divided by the f32 word of 256. -/
def rowMean {b : Nat} (p : Fin b → EReal) : EReal := Ideal.div (∑ k, p k) (Ideal.ofBits .f32 0x43800000#32)

/-- One minus the Pearson correlation of two rows: the centred rows' inner product over the product of their norms
    plus the f32 word nearest 1e-12. -/
def rowCorr {b : Nat} (p t : Fin b → EReal) : EReal :=
  Ideal.ofBits .f32 0x3F800000#32
    - Ideal.div (∑ k, (p k - rowMean p) * (t k - rowMean t))
        (Ideal.sqrt (∑ k, (p k - rowMean p) * (p k - rowMean p)) * Ideal.sqrt (∑ k, (t k - rowMean t) * (t k - rowMean t))
          + Ideal.ofBits .f32 0x2B8CBCCC#32)

/-- The stable binary cross-entropy of a logit `x` against a label `z`: max(x, 0) - x·z + log(1 + exp(-|x|)),
    with |x| = max(x, -x). -/
def bce (x z : EReal) : EReal := max x 0 - x * z + Ideal.log1p (Ideal.exp (-(max x (-x))))

/-- The sum over all entries of the squared difference, row by row. -/
def sqSum {a b : Nat} (P T : Mat a b) : EReal := ∑ r : Fin a, rowSq (row P r) (row T r)

/-- The sum over the rows of one minus the rows' correlation. -/
def corrSum {a b : Nat} (P T : Mat a b) : EReal := ∑ r : Fin a, rowCorr (row P r) (row T r)

/-- The sum over all entries of the cross-entropy, row by row. -/
def bceSum {a b : Nat} (X A : Mat a b) : EReal := ∑ r : Fin a, ∑ c : Fin b, bce (X (ix2 r c)) (A (ix2 r c))

/-- The mean squared difference: the sum divided by the f32 word of 8192 · 256. -/
def mseLoss (P T : Mat 8192 256) : EReal := Ideal.div (sqSum P T) (Ideal.ofBits .f32 0x4A000000#32)

/-- The mean of one minus the correlation: the sum divided by the f32 word of 8192. -/
def corrLoss (P T : Mat 8192 256) : EReal := Ideal.div (corrSum P T) (Ideal.ofBits .f32 0x46000000#32)

/-- The mean cross-entropy: the sum divided by the f32 word of 8192 · 8192. -/
def interLoss (X A : Mat 8192 8192) : EReal := Ideal.div (bceSum X A) (Ideal.ofBits .f32 0x4C800000#32)

/-- The total: the three parts weighted by the f32 words nearest 0.6, 0.2 and 0.2, added left to right. -/
def total (P T : Mat 8192 256) (X A : Mat 8192 8192) : EReal :=
  Ideal.ofBits .f32 0x3F19999A#32 * mseLoss P T + Ideal.ofBits .f32 0x3E4CCCCD#32 * corrLoss P T
    + Ideal.ofBits .f32 0x3E4CCCCD#32 * interLoss X A

/-! ## Regrouping the sums -/

/-- A sum over 8192 rows is the sum over 8 blocks of 1024 consecutive rows of each block's sum. -/
theorem sum_rowBlocks (f : Fin 8192 → EReal) :
    ∑ r : Fin 8192, f r = ∑ t : Fin 8, ∑ j : Fin 1024, f ⟨t.val * 1024 + j.val, block_index_lt t j⟩ :=
  sum_blocks 8 1024 f

/-- A sum over the 8192 × 8192 entries is the sum over the 128 tiles of a 16 × 8 tiling by 512 × 1024 blocks — tile
    `t` is block row `t / 8`, block column `t % 8` — of each tile's sum. -/
theorem sum_tiles (g : Fin 8192 → Fin 8192 → EReal) :
    ∑ R : Fin 8192, ∑ C : Fin 8192, g R C
      = ∑ t : Fin 128, ∑ r : Fin 512, ∑ c : Fin 1024,
          g ⟨t.val / 8 * 512 + r.val, by have := t.isLt; have := r.isLt; omega⟩
            ⟨t.val % 8 * 1024 + c.val, by have := t.isLt; have := c.isLt; omega⟩ := by
  have hR : ∑ R : Fin 8192, ∑ C : Fin 8192, g R C
      = ∑ i : Fin 16, ∑ r : Fin 512, ∑ C : Fin 8192, g ⟨i.val * 512 + r.val, block_index_lt i r⟩ C :=
    sum_blocks 16 512 fun R => ∑ C : Fin 8192, g R C
  have hC : ∀ R : Fin 8192, ∑ C : Fin 8192, g R C
      = ∑ j : Fin 8, ∑ c : Fin 1024, g R ⟨j.val * 1024 + c.val, block_index_lt j c⟩ :=
    fun R => sum_blocks 8 1024 fun C => g R C
  have hT : ∑ t : Fin 128, ∑ r : Fin 512, ∑ c : Fin 1024,
        g ⟨t.val / 8 * 512 + r.val, by have := t.isLt; have := r.isLt; omega⟩
          ⟨t.val % 8 * 1024 + c.val, by have := t.isLt; have := c.isLt; omega⟩
      = ∑ i : Fin 16, ∑ j : Fin 8, ∑ r : Fin 512, ∑ c : Fin 1024,
          g ⟨i.val * 512 + r.val, block_index_lt i r⟩ ⟨j.val * 1024 + c.val, block_index_lt j c⟩ := by
    refine (sum_blocks 16 8 _).trans ?_
    refine Finset.sum_congr rfl fun i _ => Finset.sum_congr rfl fun j _ =>
      Finset.sum_congr rfl fun r _ => Finset.sum_congr rfl fun c _ => ?_
    have hi := i.isLt
    have hj := j.isLt
    refine congrArg₂ g (Fin.ext ?_) (Fin.ext ?_)
    · show (i.val * 8 + j.val) / 8 * 512 + r.val = i.val * 512 + r.val
      rw [show (i.val * 8 + j.val) / 8 = i.val from by omega]
    · show (i.val * 8 + j.val) % 8 * 1024 + c.val = j.val * 1024 + c.val
      rw [show (i.val * 8 + j.val) % 8 = j.val from by omega]
  rw [hR, hT]
  refine Finset.sum_congr rfl fun i _ => ?_
  refine (Finset.sum_congr rfl fun r _ => hC _).trans ?_
  exact Finset.sum_comm

/-- A total that starts at `0 + part 0` and grows by `+ part (n + 1)` is, after position `n`, the sum of the parts
    up to `n`. -/
theorem running_sum {N : Nat} (part : Fin N → EReal) (acc : (n : Nat) → n < N → EReal)
    (h0 : ∀ h : 0 < N, acc 0 h = 0 + part ⟨0, h⟩)
    (hs : ∀ (n : Nat) (h : n + 1 < N), acc (n + 1) h = acc n (Nat.lt_of_succ_lt h) + part ⟨n + 1, h⟩) :
    ∀ (n : Nat) (h : n < N), acc n h = ∑ t : Fin (n + 1), part ⟨t.val, lt_of_lt_of_le t.isLt h⟩
  | 0, h => by rw [h0 h, zero_add, Fin.sum_univ_one]; rfl
  | n + 1, h => by
    rw [hs n h, running_sum part acc h0 hs n (Nat.lt_of_succ_lt h)]
    exact (Fin.sum_univ_castSucc (fun t : Fin (n + 2) => part ⟨t.val, lt_of_lt_of_le t.isLt h⟩)).symm

/-- So after the last position it is the sum of all the parts. -/
theorem running_sum_last {N : Nat} (part : Fin (N + 1) → EReal) (acc : (n : Nat) → n < N + 1 → EReal)
    (h0 : ∀ h : 0 < N + 1, acc 0 h = 0 + part ⟨0, h⟩)
    (hs : ∀ (n : Nat) (h : n + 1 < N + 1), acc (n + 1) h = acc n (Nat.lt_of_succ_lt h) + part ⟨n + 1, h⟩) :
    acc N (Nat.lt_succ_self N) = ∑ t : Fin (N + 1), part t :=
  running_sum part acc h0 hs N (Nat.lt_succ_self N)

end Cert.Loss

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibColumnSum.lean ====
/-
  The sum down a column, kept as a one-entry block, read on the extended reals.

  A reduction over the first axis of an [a, 1] column gives a one-element vector, which a reshape keeps as a [1, 1]
  block. Its one entry is the sum of the column's a entries. Together with a row sum kept as a column this reads a
  block's total — first along the rows, then down the column of row sums — as a double sum over the coordinates.
-/
import Idealize.ShloMosaic.Lib.Pipeline.Value
import Idealize.ShloMosaic.Lib.ValueIdx
import Idealize.ShloMosaic.PureOps.Ideal.Laws
import proofs.«126557_j34342558499116_2_alg».proof.Proof.LibKeepdims

noncomputable section

open scoped BigOperators

namespace Cert.Lib.ColumnSum

open Idealize.ShloMosaic Idealize.ShloMosaic.ValueIdx Cert.Lib.Keepdims

/-- An index of a [1, 1] block is its one index (0, 0). -/
theorem idx_one_one (j : (⟨2, ![1, 1]⟩ : Shape).Idx) : j = ix2 (0 : Fin 1) (0 : Fin 1) := by
  funext d
  match d with
  | ⟨0, _⟩ => exact Fin.ext (by have := idx2_lt0 j; show (j 0).val = 0; omega)
  | ⟨1, _⟩ => exact Fin.ext (by have := idx2_lt1 j; show (j 1).val = 0; omega)

/-- Two [1, 1] blocks are equal when their one entries are. -/
theorem ext_one_one {α : Type} {u v : (⟨2, ![1, 1]⟩ : Shape).Idx → α}
    (h : u (ix2 (0 : Fin 1) (0 : Fin 1)) = v (ix2 (0 : Fin 1) (0 : Fin 1))) : u = v :=
  funext fun j => by rw [idx_one_one j]; exact h

/-- A [1, 1] block reshaped to a scalar: the scalar's one entry is the block's one entry. -/
theorem blockAsScalar_apply {α : Type} (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) := by
  refine shapeCast_apply x h j (ix2 (0 : Fin 1) (0 : Fin 1)) ?_
  rw [Shape.rowMajor_val_two]
  show (0 : Nat) * _ + 0 = (Shape.rowMajorPi _ j).val
  rw [Shape.rowMajorPi_zero]
  simp

/-- The sum down an [a, 1] column on the extended reals, kept as a [1, 1] block: its entry is the sum of the column's
    entries. -/
theorem sumColumn_apply {a : Nat} {φ : FTy} (v : FVec Ideal ⟨2, ![a, 1]⟩ φ) (acc : BitVec φ.bits)
    (hr : (⟨2, ![a, 1]⟩ : Shape).Reduces [0] ⟨1, ![1]⟩) (hφ : FKind.Formats φ) (hacc : acc = FKind.add.neutral φ hφ)
    (hc : (⟨1, ![1]⟩ : Shape).ShapeCasts ⟨2, ![1, 1]⟩) :
    shapeCast ⟨2, ![1, 1]⟩ (multiReduction .add [0] ⟨1, ![1]⟩ v acc hr hφ hacc) hc (ix2 (0 : Fin 1) (0 : Fin 1))
      = ∑ k : Fin a, v (ix2 k (0 : Fin 1)) := by
  refine (castCol_apply _ hc (0 : Fin 1)).trans ?_
  refine (Ideal.multiReduction_add_single v acc hr hφ hacc (ix1 (0 : Fin 1))).trans ?_
  refine Finset.sum_congr rfl fun k _ => ?_
  exact congrArg v (funext fun d => Fin.ext (by match d with | ⟨0, _⟩ => rfl | ⟨1, _⟩ => rfl))

/-- A block's total taken in two steps — each row's sum kept as a column, then the sum down that column kept as a
    [1, 1] block — is the double sum over the block's coordinates. -/
theorem blockTotal_apply {a b : Nat} {φ : FTy} (v : FVec Ideal ⟨2, ![a, b]⟩ φ) (acc acc' : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩)
    (hr' : (⟨2, ![a, 1]⟩ : Shape).Reduces [0] ⟨1, ![1]⟩) (hφ' : FKind.Formats φ) (hacc' : acc' = FKind.add.neutral φ hφ')
    (hc' : (⟨1, ![1]⟩ : Shape).ShapeCasts ⟨2, ![1, 1]⟩) :
    shapeCast ⟨2, ![1, 1]⟩ (multiReduction .add [0] ⟨1, ![1]⟩
        (shapeCast ⟨2, ![a, 1]⟩ (multiReduction .add [1] ⟨1, ![a]⟩ v acc hr hφ hacc) hc) acc' hr' hφ' hacc') hc'
        (ix2 (0 : Fin 1) (0 : Fin 1))
      = ∑ r : Fin a, ∑ k : Fin b, v (ix2 r k) := by
  refine (sumColumn_apply _ acc' hr' hφ' hacc' hc').trans ?_
  exact Finset.sum_congr rfl fun r _ => sumCol_apply v acc hr hφ hacc hc r

end Cert.Lib.ColumnSum

end
-- ==== Proof.NodeBody.lean ====
/-
  What one grid point of the node kernel adds to its two running totals, on the extended reals.

  At a point the kernel holds a block of 1024 rows of each of the two [8192, 256] arrays. To the first total it adds
  the block's sum of squared differences: each row's sum first, then the sum of the 1024 row sums. To the second it
  adds the sum over the block's rows of one minus the rows' Pearson correlation: a row's mean is its sum divided by
  256, kept as a column and spread back along the row; the three sums of products of centred entries are again row
  sums kept as columns; the rest is entry by entry down the column.
-/
import proofs.«126557_j34342558499116_2_alg».proof.Proof.Gen.KernelIdeal.Skeleton
import proofs.«126557_j34342558499116_2_alg».proof.Proof.Spec
import proofs.«126557_j34342558499116_2_alg».proof.Proof.LibKeepdims
import proofs.«126557_j34342558499116_2_alg».proof.Proof.LibColumnSum
import Idealize.ShloMosaic.Lib.Pipeline.Value
import Idealize.ShloMosaic.Lib.ValueIdx
import Idealize.ShloMosaic.PureOps.Ideal.Laws

noncomputable section

open scoped BigOperators

namespace Cert.KernelIdeal.NodeBody

open Cert.KernelIdeal Cert.KernelIdeal.Gen Idealize.ShloMosaic Idealize.ShloMosaic.ValueIdx
open Cert.Lib.Keepdims Cert.Lib.ColumnSum Cert.Loss

/-- The one index of a [1, 1] block. -/
abbrev o11 : S1x1.Idx := ix2 (0 : Fin 1) (0 : Fin 1)

/-- A block's row sums kept as a column. -/
abbrev colSum (M : FVec Ideal S1024x256 .f32) : FVec Ideal S1024x1 .f32 :=
  shapeCast S1024x1 (multiReduction .add [1] S1024 M 0x00000000#32 reduces_S1024x256_S1024 (.inl rfl) rfl) shapeCasts_S1024_S1024x1

theorem colSum_apply (M : FVec Ideal S1024x256 .f32) (r : Fin 1024) :
    colSum M (ix2 r (0 : Fin 1)) = ∑ k : Fin 256, M (ix2 r k) :=
  sumCol_apply M _ _ _ _ _ r

/-- A block with each row's mean subtracted from the row. -/
abbrev centred (M : FVec Ideal S1024x256 .f32) : FVec Ideal S1024x256 .f32 :=
  subf M (broadcastTo S1024x256 (divf (colSum M) (broadcast S1024x1 (Scalar.ofBits .f32 0x43800000#32))) broadcasts_S1024x1_S1024x256)

theorem centred_apply (M : FVec Ideal S1024x256 .f32) (r : Fin 1024) (k : Fin 256) :
    centred M (ix2 r k) = M (ix2 r k) - rowMean (row M r) := by
  show M (ix2 r k) - broadcastTo S1024x256 (divf (colSum M) (broadcast S1024x1 (Scalar.ofBits .f32 0x43800000#32))) broadcasts_S1024x1_S1024x256 (ix2 r k) = _
  rw [bcastCol_apply _ broadcasts_S1024x1_S1024x256 r k]
  show M (ix2 r k) - Ideal.div (colSum M (ix2 r (0 : Fin 1))) (Ideal.ofBits .f32 0x43800000#32) = _
  rw [colSum_apply]
  rfl

/-- The first addend: the block's sum of squared differences, row by row. -/
theorem sq_part (P T : Vec Ideal S1024x256 .f32) :
    k0_pay5 (F := Ideal) P T o11 = ∑ r : Fin 1024, rowSq (row P r) (row T r) := by
  unfold k0_pay5
  refine (blockTotal_apply (mulf (subf P T) (subf P T)) _ _ _ _ _ _ _ _ _ _).trans ?_
  rfl

/-- Row `r` of the column the second addend sums: one minus the correlation of the block's rows `r`. -/
theorem corr_col (P T : Vec Ideal S1024x256 .f32) (r : Fin 1024) :
    k0_pay6 (F := Ideal) P T (ix2 r (0 : Fin 1)) = rowCorr (row P r) (row T r) := by
  show Ideal.ofBits .f32 0x3F800000#32
      - Ideal.div (colSum (mulf (centred P) (centred T)) (ix2 r (0 : Fin 1)))
          (Ideal.sqrt (colSum (mulf (centred P) (centred P)) (ix2 r (0 : Fin 1)))
              * Ideal.sqrt (colSum (mulf (centred T) (centred T)) (ix2 r (0 : Fin 1)))
            + Ideal.ofBits .f32 0x2B8CBCCC#32) = _
  rw [colSum_apply, colSum_apply, colSum_apply]
  unfold rowCorr
  simp only [mulf_apply, centred_apply]

/-- The second addend: the sum down that column. -/
theorem corr_part (V39 : FVec Ideal S1024x1 .f32) :
    shapeCast S1x1 (multiReduction .add [0] S1 V39 0x00000000#32 reduces_S1024x1_S1 (.inl rfl) rfl) shapeCasts_S1_S1x1 o11
      = ∑ r : Fin 1024, V39 (ix2 r (0 : Fin 1)) :=
  sumColumn_apply V39 _ _ _ _ _

/-- The store into the first total: what it held plus the block's sum of squared differences. -/
theorem pay1_apply (P T : Vec Ideal S1024x256 .f32) (acc : Vec Ideal S1x1 .f32) :
    k0_pay1 (F := Ideal) (k0_pay5 P T) acc o11 = acc o11 + ∑ r : Fin 1024, rowSq (row P r) (row T r) := by
  unfold k0_pay1
  show shapeCast S1x1 acc shapeCasts_S1x1_S1x1 o11 + k0_pay5 (F := Ideal) P T o11 = _
  rw [shapeCast_self, sq_part]

/-- The store into the second total: what it held plus the block's sum of one minus the rows' correlations. -/
theorem pay2_apply (P T : Vec Ideal S1024x256 .f32) (acc : Vec Ideal S1x1 .f32) :
    k0_pay2 (F := Ideal) (k0_pay6 P T) acc o11 = acc o11 + ∑ r : Fin 1024, rowCorr (row P r) (row T r) := by
  unfold k0_pay2
  show shapeCast S1x1 acc shapeCasts_S1x1_S1x1 o11
      + shapeCast S1x1 (multiReduction .add [0] S1 (k0_pay6 (F := Ideal) P T) 0x00000000#32 reduces_S1024x1_S1 (.inl rfl) rfl) shapeCasts_S1_S1x1 o11 = _
  rw [shapeCast_self, corr_part]
  exact congrArg (acc o11 + ·) (Finset.sum_congr rfl fun r _ => corr_col P T r)

end Cert.KernelIdeal.NodeBody

end
-- ==== Proof.NodeRegion.lean ====
/-
  The node-loss region: what its two result arrays hold when it ends, on the extended reals.

  The region visits 8 grid points; point t holds rows 1024·t … 1024·t + 1023 of the two [8192, 256] arrays. Its two
  [1, 1] results are running totals whose block never moves: the first point stores zero and then adds its block's
  contribution, every later point adds its own to what the point before left, and the block is written back once,
  after the last point. So each result array ends at the sum over the 8 points of the points' contributions, which
  is the sum over all 8192 rows: the squared differences for the first result, one minus the rows' correlations for
  the second. Everything is stated for any contents `V` the region may find in its arrays when it is entered.
-/
import proofs.«126557_j34342558499116_2_alg».proof.Proof.Gen.KernelIdeal.Frame
import proofs.«126557_j34342558499116_2_alg».proof.Proof.NodeBody
import Idealize.ShloMosaic.Lib.Pipeline.Value
import Idealize.ShloMosaic.Lib.Tactic

set_option maxRecDepth 16384

noncomputable section

open scoped BigOperators

namespace Cert.KernelIdeal.NodeRegion

open Cert.KernelIdeal Cert.KernelIdeal.Gen
open Idealize.ShloMosaic Idealize.ShloMosaic.TcCoe Idealize.SL.Sem Idealize.ShloMosaic.Tactic Idealize.ShloMosaic.ValueIdx
open Idealize.ShloMosaic.Pipeline (Dat)
open Cert.Loss Cert.Lib.ColumnSum Cert.KernelIdeal.NodeBody

theorem hz : (![0, 0] : Fin 2 → Nat) = fun _ => 0 := funext fun a => by fin_cases a <;> rfl

/-! ## What each case of the body leaves in the two totals -/

section Cases

variable {F : FTy → Type} [FloatOps F]

/-- A later point leaves in the first total what it held plus the point's sum of squared differences. -/
theorem later_sq (c : Dev nD) (i : grid0.Coords) (a1 : Memref sig .tc .vmem S1024x256 .f32) (h1 : a1.IsWhole)
    (a2 : Memref sig .tc .vmem S1024x256 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S1024x256 .f32) (xo2 xo3 : Vec F S1x1 .f32) :
    out0_B_2 c i a1 h1 a2 h2 a3 h3 a4 h4 hc x0 x1 xo2 xo3 = k0_pay1 (k0_pay5 x0 x1) xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, h4.read_unread,
    View.ld_unit_zero (S := S1024x256) hz, View.ld_unit_zero (S := S1x1) hz]

/-- A later point leaves in the second total what it held plus the point's sum of one minus the correlations. -/
theorem later_corr (c : Dev nD) (i : grid0.Coords) (a1 : Memref sig .tc .vmem S1024x256 .f32) (h1 : a1.IsWhole)
    (a2 : Memref sig .tc .vmem S1024x256 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S1024x256 .f32) (xo2 xo3 : Vec F S1x1 .f32) :
    out0_B_3 c i a1 h1 a2 h2 a3 h3 a4 h4 hc x0 x1 xo2 xo3 = k0_pay2 (k0_pay6 x0 x1) xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, h4.read_unread,
    View.ld_unit_zero (S := S1024x256) hz, View.ld_unit_zero (S := S1x1) hz]

/-- The first point stores zero, reads it back, and leaves zero plus the point's sum of squared differences. -/
theorem first_sq (c : Dev nD) (i : grid0.Coords) (a1 : Memref sig .tc .vmem S1024x256 .f32) (h1 : a1.IsWhole)
    (a2 : Memref sig .tc .vmem S1024x256 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S1024x256 .f32) :
    out0_A_2 c i a1 h1 a2 h2 a3 h3 a4 h4 hc x0 x1 = k0_pay1 (k0_pay5 x0 x1) (k0_pay3 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread,
    View.ld_unit_zero (S := S1024x256) hz, View.ld_unit_zero (S := S1x1) hz]

/-- The first point likewise leaves zero plus the point's sum of one minus the correlations. -/
theorem first_corr (c : Dev nD) (i : grid0.Coords) (a1 : Memref sig .tc .vmem S1024x256 .f32) (h1 : a1.IsWhole)
    (a2 : Memref sig .tc .vmem S1024x256 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S1024x256 .f32) :
    out0_A_3 c i a1 h1 a2 h2 a3 h3 a4 h4 hc x0 x1 = k0_pay2 (k0_pay6 x0 x1) (k0_pay4 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread,
    View.ld_unit_zero (S := S1024x256) hz, View.ld_unit_zero (S := S1x1) hz]

end Cases

/-! ## The totals after the last point -/

variable (V : (c : Dev nD) → (b : Ref sig .tc) → Buf (Elt Ideal) ((c : Thread nD τ).loc b))

/-- Point `t`'s sum of squared differences. -/
def sqPart (c : Dev nD) (t : Fin cfg0.N) : EReal :=
  ∑ r : Fin 1024, rowSq (row (iblk0 V c 0 t : Vec Ideal S1024x256 .f32) r) (row (iblk0 V c 1 t : Vec Ideal S1024x256 .f32) r)

/-- Point `t`'s sum of one minus the rows' correlations. -/
def corrPart (c : Dev nD) (t : Fin cfg0.N) : EReal :=
  ∑ r : Fin 1024, rowCorr (row (iblk0 V c 0 t : Vec Ideal S1024x256 .f32) r) (row (iblk0 V c 1 t : Vec Ideal S1024x256 .f32) r)

theorem zero_block : (k0_pay3 (F := Ideal)) o11 = 0 := Ideal.ofBits_zero_f32
theorem zero_block' : (k0_pay4 (F := Ideal)) o11 = 0 := Ideal.ofBits_zero_f32

/-- After point `n` the first total is the sum of the contributions of the points up to `n`. -/
theorem sq_upto (c : Dev nD) (n : Nat) (h : n < cfg0.N) :
    (outsAt0 V c n h).1 o11 = ∑ t : Fin (n + 1), sqPart V c ⟨t.val, lt_of_lt_of_le t.isLt h⟩ := by
  refine running_sum (sqPart V c) (fun n h => (outsAt0 V c n h).1 o11) (fun h0 => ?_) (fun n hn => ?_) n h
  · show (outsAt0 V c 0 h0).1 o11 = 0 + sqPart V c ⟨0, h0⟩
    rw [outsAt0_A V c ⟨0, h0⟩ rfl]
    dsimp only
    rw [first_sq, pay1_apply, zero_block]
    rfl
  · show (outsAt0 V c (n + 1) hn).1 o11 = (outsAt0 V c n (Nat.lt_of_succ_lt hn)).1 o11 + sqPart V c ⟨n + 1, hn⟩
    have hN : cfg0.N = 8 := N_0
    have hB : ¬(⟨n + 1, hn⟩ : Fin cfg0.N).val % 8 = 0 := by dsimp only; omega
    rw [outsAt0_B V c ⟨n + 1, hn⟩ hB]
    dsimp only
    rw [later_sq, pay1_apply]
    rfl

/-- After point `n` the second total is the sum of the contributions of the points up to `n`. -/
theorem corr_upto (c : Dev nD) (n : Nat) (h : n < cfg0.N) :
    (outsAt0 V c n h).2 o11 = ∑ t : Fin (n + 1), corrPart V c ⟨t.val, lt_of_lt_of_le t.isLt h⟩ := by
  refine running_sum (corrPart V c) (fun n h => (outsAt0 V c n h).2 o11) (fun h0 => ?_) (fun n hn => ?_) n h
  · show (outsAt0 V c 0 h0).2 o11 = 0 + corrPart V c ⟨0, h0⟩
    rw [outsAt0_A V c ⟨0, h0⟩ rfl]
    dsimp only
    rw [first_corr, pay2_apply, zero_block']
    rfl
  · show (outsAt0 V c (n + 1) hn).2 o11 = (outsAt0 V c n (Nat.lt_of_succ_lt hn)).2 o11 + corrPart V c ⟨n + 1, hn⟩
    have hN : cfg0.N = 8 := N_0
    have hB : ¬(⟨n + 1, hn⟩ : Fin cfg0.N).val % 8 = 0 := by dsimp only; omega
    rw [outsAt0_B V c ⟨n + 1, hn⟩ hB]
    dsimp only
    rw [later_corr, pay2_apply]
    rfl

/-! ## A point's blocks are row blocks of the arrays -/

/-- Point `t` reads block row `t`, block column 0 of both arrays. -/
theorem block_index0 : ∀ t : Fin cfg0.N, win0_0.index t 0 = t.val ∧ win0_0.index t 1 = 0 :=
  (by decide +kernel : ∀ t : Fin grid0.N, win0_0.index t 0 = t.val ∧ win0_0.index t 1 = 0)
theorem block_index1 : ∀ t : Fin cfg0.N, win0_1.index t 0 = t.val ∧ win0_1.index t 1 = 0 :=
  (by decide +kernel : ∀ t : Fin grid0.N, win0_1.index t 0 = t.val ∧ win0_1.index t 1 = 0)

/-- Entry (r, k) of point `t`'s block of the first array is entry (1024·t + r, k) of the array. -/
theorem blk0_apply (c : Dev nD) (t : Fin cfg0.N) (r : Fin 1024) (k : Fin 256)
    (hb : t.val * 1024 + r.val < 8192) :
    (iblk0 V c 0 t : Vec Ideal S1024x256 .f32) (ix2 r k) = (V c main_arg0 : Mat 8192 256) (ix2 ⟨t.val * 1024 + r.val, hb⟩ k) := by
  have hi := block_index0 t
  unfold iblk0
  rw [View.read_apply]
  show V c main_arg0 _ = V c main_arg0 _
  congr 1
  funext a
  apply Fin.ext
  match a with
  | ⟨0, _⟩ => show win0_0.index t 0 * 1024 + 1 * r.val = t.val * 1024 + r.val; rw [hi.1]; omega
  | ⟨1, _⟩ => show win0_0.index t 1 * 256 + 1 * k.val = k.val; rw [hi.2]; omega

/-- The same for the second array. -/
theorem blk1_apply (c : Dev nD) (t : Fin cfg0.N) (r : Fin 1024) (k : Fin 256)
    (hb : t.val * 1024 + r.val < 8192) :
    (iblk0 V c 1 t : Vec Ideal S1024x256 .f32) (ix2 r k) = (V c main_arg1 : Mat 8192 256) (ix2 ⟨t.val * 1024 + r.val, hb⟩ k) := by
  have hi := block_index1 t
  unfold iblk0
  rw [View.read_apply]
  show V c main_arg1 _ = V c main_arg1 _
  congr 1
  funext a
  apply Fin.ext
  match a with
  | ⟨0, _⟩ => show win0_1.index t 0 * 1024 + 1 * r.val = t.val * 1024 + r.val; rw [hi.1]; omega
  | ⟨1, _⟩ => show win0_1.index t 1 * 256 + 1 * k.val = k.val; rw [hi.2]; omega

/-- So the 8 points' sums of squared differences add up to the sum over all rows. -/
theorem sq_all (c : Dev nD) (h7 : 7 < cfg0.N) :
    (outsAt0 V c 7 h7).1 o11 = sqSum (V c main_arg0 : Mat 8192 256) (V c main_arg1 : Mat 8192 256) := by
  rw [sq_upto V c 7 h7]
  unfold sqSum
  rw [sum_rowBlocks]
  refine Finset.sum_congr rfl fun t _ => Finset.sum_congr rfl fun r _ => ?_
  exact congrArg₂ rowSq (funext fun k => blk0_apply V c _ r k _) (funext fun k => blk1_apply V c _ r k _)

/-- And the 8 points' sums of one minus the correlations add up to the sum over all rows. -/
theorem corr_all (c : Dev nD) (h7 : 7 < cfg0.N) :
    (outsAt0 V c 7 h7).2 o11 = corrSum (V c main_arg0 : Mat 8192 256) (V c main_arg1 : Mat 8192 256) := by
  rw [corr_upto V c 7 h7]
  unfold corrSum
  rw [sum_rowBlocks]
  refine Finset.sum_congr rfl fun t _ => Finset.sum_congr rfl fun r _ => ?_
  exact congrArg₂ rowCorr (funext fun k => blk0_apply V c _ r k _) (funext fun k => blk1_apply V c _ r k _)

/-! ## The result arrays after the region -/

theorem h7 : 7 < cfg0.N := by rw [show cfg0.N = 8 from N_0]; decide

/-- The one write-back of the first total, after the last point, writes the total after point 7: block (0, 0) of a
    [1, 1] array read through zero offsets is the array. -/
theorem flushed_sq (c : Dev nD) (t : Fin cfg0.N) (hf : (cfg0.win 2).flush t = true) :
    (dat0 V c).flushed 2 t = ((cfg0.win 2).blk t).view.read (Elt Ideal) ((outsAt0 V c 7 h7).1 : Buf (Elt Ideal) ((c : Thread nD τ).loc main_v0_0)) := by
  have hN : cfg0.N = 8 := N_0
  have h3 : t.val = 7 := by have := (flush0_2 t).mp hf; have := t.isLt; omega
  obtain rfl : t = t0_7 := Fin.ext h3
  show (cfg0.win 2).cut (grid0.coords t0_7) ((dat0 V c).after 2 t0_7) = _
  rw [after0_2]
  have hz' : (fun a => win0_2.index t0_7 a * main_v0_0.ty.shape.size a) = fun _ => 0 := funext fun a => by fin_cases a <;> decide
  exact (Memref.read_access_unit_zero (Elt Ideal) main_v0_0 hz' (fun a => by rw [congrFun hz' a]; simp) _).symm

/-- So the first result array ends at the total after point 7. -/
theorem final_sq (c : Dev nD) :
    (dat0 V c).arrAt 2 cfg0.N = ((outsAt0 V c 7 h7).1 : Buf (Elt Ideal) ((c : Thread nD τ).loc main_v0_0)) :=
  (dat0 V c).arrAt_eq_of_cover 2 _ (flushed_sq V c) fun i =>
    ⟨t0_7, (flush0_2 t0_7).mpr rfl, by
      show i ∈ ((View.whole main_v0_0).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

/-- The same for the second total. -/
theorem flushed_corr (c : Dev nD) (t : Fin cfg0.N) (hf : (cfg0.win 3).flush t = true) :
    (dat0 V c).flushed 3 t = ((cfg0.win 3).blk t).view.read (Elt Ideal) ((outsAt0 V c 7 h7).2 : Buf (Elt Ideal) ((c : Thread nD τ).loc main_v0_1)) := by
  have hN : cfg0.N = 8 := N_0
  have h3 : t.val = 7 := by have := (flush0_3 t).mp hf; have := t.isLt; omega
  obtain rfl : t = t0_7 := Fin.ext h3
  show (cfg0.win 3).cut (grid0.coords t0_7) ((dat0 V c).after 3 t0_7) = _
  rw [after0_3]
  have hz' : (fun a => win0_3.index t0_7 a * main_v0_1.ty.shape.size a) = fun _ => 0 := funext fun a => by fin_cases a <;> decide
  exact (Memref.read_access_unit_zero (Elt Ideal) main_v0_1 hz' (fun a => by rw [congrFun hz' a]; simp) _).symm

theorem final_corr (c : Dev nD) :
    (dat0 V c).arrAt 3 cfg0.N = ((outsAt0 V c 7 h7).2 : Buf (Elt Ideal) ((c : Thread nD τ).loc main_v0_1)) :=
  (dat0 V c).arrAt_eq_of_cover 3 _ (flushed_corr V c) fun i =>
    ⟨t0_7, (flush0_3 t0_7).mpr rfl, by
      show i ∈ ((View.whole main_v0_1).slice (win0_3.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 1 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 1 from by decide +kernel]; omega⟩

/-- The first result array's one entry is the sum of squared differences over all entries of the two arrays. -/
theorem sq_array (c : Dev nD) :
    (dat0 V c).arrAt 2 cfg0.N o11 = sqSum (V c main_arg0 : Mat 8192 256) (V c main_arg1 : Mat 8192 256) := by
  rw [final_sq]; exact sq_all V c h7

/-- The second result array's one entry is the sum over the rows of one minus the rows' correlations. -/
theorem corr_array (c : Dev nD) :
    (dat0 V c).arrAt 3 cfg0.N o11 = corrSum (V c main_arg0 : Mat 8192 256) (V c main_arg1 : Mat 8192 256) := by
  rw [final_corr]; exact corr_all V c h7

end Cert.KernelIdeal.NodeRegion

end
-- ==== Proof.InteractionBody.lean ====
/-
  What one grid point of the interaction kernel adds to its running total, on the extended reals.

  At a point the kernel holds a 512 × 1024 block of the logits and of the labels. It adds to the total the block's
  sum of the stable binary cross-entropy max(x, 0) - x·z + log(1 + exp(-|x|)), each row's sum first and then the
  sum of the 512 row sums. The kernel writes -|x| as 0 - |x|, which on the extended reals is the negation.
-/
import proofs.«126557_j34342558499116_2_alg».proof.Proof.Gen.KernelIdeal.Skeleton
import proofs.«126557_j34342558499116_2_alg».proof.Proof.Spec
import proofs.«126557_j34342558499116_2_alg».proof.Proof.LibKeepdims
import proofs.«126557_j34342558499116_2_alg».proof.Proof.LibColumnSum
import Idealize.ShloMosaic.Lib.Pipeline.Value
import Idealize.ShloMosaic.Lib.ValueIdx
import Idealize.ShloMosaic.PureOps.Ideal.Laws

noncomputable section

open scoped BigOperators

namespace Cert.KernelIdeal.InteractionBody

open Cert.KernelIdeal Cert.KernelIdeal.Gen Idealize.ShloMosaic Idealize.ShloMosaic.ValueIdx
open Cert.Lib.Keepdims Cert.Lib.ColumnSum Cert.Loss

/-- The one index of a [1, 1] block. -/
abbrev o11 : S1x1.Idx := ix2 (0 : Fin 1) (0 : Fin 1)

/-- The block of cross-entropies as the kernel spells it. -/
abbrev bceBlock (X Z : FVec Ideal S512x1024 .f32) : FVec Ideal S512x1024 .f32 :=
  addf (subf (maximumf X (broadcast S512x1024 (Scalar.ofBits .f32 0x00000000#32))) (mulf X Z))
    (log1p (exp (subf (broadcast S512x1024 (Scalar.ofBits .f32 0x00000000#32)) (absf X))))

/-- Entry by entry it is the cross-entropy of the logit against the label. -/
theorem bceBlock_apply (X Z : FVec Ideal S512x1024 .f32) (i : S512x1024.Idx) : bceBlock X Z i = bce (X i) (Z i) := by
  show max (X i) (Ideal.ofBits .f32 0x00000000#32) - X i * Z i
      + Ideal.log1p (Ideal.exp (Ideal.ofBits .f32 0x00000000#32 - max (X i) (-(X i)))) = _
  rw [Ideal.ofBits_zero_f32, zero_sub]
  rfl

/-- The store into the total: what it held plus the block's sum of cross-entropies. -/
theorem pay2_apply (X Z : Vec Ideal S512x1024 .f32) (acc : Vec Ideal S1x1 .f32) :
    k1_pay2 (F := Ideal) X Z acc o11 = acc o11 + ∑ r : Fin 512, ∑ c : Fin 1024, bce (X (ix2 r c)) (Z (ix2 r c)) := by
  unfold k1_pay2
  show shapeCast S1x1 acc shapeCasts_S1x1_S1x1 o11
      + shapeCast S1x1 (multiReduction .add [0] S1
          (shapeCast S512x1 (multiReduction .add [1] S512 (bceBlock X (shapeCast S512x1024 Z shapeCasts_S512x1024_S512x1024))
            0x00000000#32 reduces_S512x1024_S512 (.inl rfl) rfl) shapeCasts_S512_S512x1)
          0x00000000#32 reduces_S512x1_S1 (.inl rfl) rfl) shapeCasts_S1_S1x1 o11 = _
  rw [shapeCast_self, shapeCast_self]
  refine congrArg (acc o11 + ·) ?_
  refine (blockTotal_apply (bceBlock X Z) _ _ _ _ _ _ _ _ _ _).trans ?_
  exact Finset.sum_congr rfl fun r _ => Finset.sum_congr rfl fun c _ => bceBlock_apply X Z _

end Cert.KernelIdeal.InteractionBody

end
-- ==== Proof.InteractionRegion.lean ====
/-
  The interaction-loss region: what its result array holds when it ends, on the extended reals.

  The region visits 128 grid points in row-major order over a 16 × 8 tiling of the two [8192, 8192] arrays, the
  logits and the labels, by blocks of 512 × 1024: point t holds block row t / 8, block column t % 8. Its [1, 1]
  result is a running total whose block never moves: the first point stores zero and then adds its block's sum of
  cross-entropies, every later point adds its own to what the point before left, and the block is written back
  once, after the last point. So the result array ends at the sum over the 128 tiles of the tiles' sums, which is
  the sum over all entries. Everything is stated for any contents `V` the region may find in its arrays.
-/
import proofs.«126557_j34342558499116_2_alg».proof.Proof.Gen.KernelIdeal.Frame
import proofs.«126557_j34342558499116_2_alg».proof.Proof.InteractionBody
import Idealize.ShloMosaic.Lib.Pipeline.Value
import Idealize.ShloMosaic.Lib.Tactic

set_option maxRecDepth 16384

noncomputable section

open scoped BigOperators

namespace Cert.KernelIdeal.InteractionRegion

open Cert.KernelIdeal Cert.KernelIdeal.Gen
open Idealize.ShloMosaic Idealize.ShloMosaic.TcCoe Idealize.SL.Sem Idealize.ShloMosaic.Tactic Idealize.ShloMosaic.ValueIdx
open Idealize.ShloMosaic.Pipeline (Dat)
open Cert.Loss Cert.Lib.ColumnSum Cert.KernelIdeal.InteractionBody

theorem hz : (![0, 0] : Fin 2 → Nat) = fun _ => 0 := funext fun a => by fin_cases a <;> rfl

/-! ## What each case of the body leaves in the total -/

section Cases

variable {F : FTy → Type} [FloatOps F]

/-- A later point leaves in the total what it held plus the point's sum of cross-entropies. -/
theorem later_bce (c : Dev nD) (i : grid1.Coords) (a2 : Memref sig .tc .vmem S512x1024 .f32) (h2 : a2.IsWhole)
    (a3 : Memref sig .tc .vmem S512x1024 .f32) (h3 : a3.IsWhole) (a4 : Memref sig .tc .vmem S1x1 .f32) (h4 : a4.IsWhole)
    (hc : ¬cond1_0 i) (x0 x1 : Vec F S512x1024 .f32) (xo2 : Vec F S1x1 .f32) :
    out1_B_2 c i a2 h2 a3 h3 a4 h4 hc x0 x1 xo2 = k1_pay2 x0 x1 xo2 := by
  unfold out1_B_2
  rw [View.read_writes_eq_canon _ _ _ (cover1_B_2 c i a2 h2 a3 h3 a4 h4 hc x0 x1 xo2)]
  unfold kernelRun1_B
  dsimp only
  sl_unfold_words
  rw [View.canon_unit_zero hz]
  simp only [View.readAt_eq_ld, h2.read_unread, h3.read_unread, h4.read_unread,
    View.ld_unit_zero (S := S512x1024) hz, View.ld_unit_zero (S := S1x1) hz]

/-- The first point stores zero, reads it back, and leaves zero plus the point's sum of cross-entropies. -/
theorem first_bce (c : Dev nD) (i : grid1.Coords) (a2 : Memref sig .tc .vmem S512x1024 .f32) (h2 : a2.IsWhole)
    (a3 : Memref sig .tc .vmem S512x1024 .f32) (h3 : a3.IsWhole) (a4 : Memref sig .tc .vmem S1x1 .f32) (h4 : a4.IsWhole)
    (hc : cond1_0 i) (x0 x1 : Vec F S512x1024 .f32) :
    out1_A_2 c i a2 h2 a3 h3 a4 h4 hc x0 x1 = k1_pay2 x0 x1 (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1x1) hz, View.readCov_unit_zero (S := S1x1) _ hz]
  simp only [View.readAt_eq_ld, h2.read_unread, h3.read_unread,
    View.ld_unit_zero (S := S512x1024) hz, View.ld_unit_zero (S := S1x1) hz]

end Cases

/-! ## The total after the last point -/

variable (V : (c : Dev nD) → (b : Ref sig .tc) → Buf (Elt Ideal) ((c : Thread nD τ).loc b))

/-- Point `t`'s sum of cross-entropies. -/
def bcePart (c : Dev nD) (t : Fin cfg1.N) : EReal :=
  ∑ r : Fin 512, ∑ k : Fin 1024, bce ((iblk1 V c 0 t : Vec Ideal S512x1024 .f32) (ix2 r k)) ((iblk1 V c 1 t : Vec Ideal S512x1024 .f32) (ix2 r k))

theorem zero_block : (k1_pay1 (F := Ideal)) o11 = 0 := Ideal.ofBits_zero_f32

/-- After point `n` the total is the sum of the contributions of the points up to `n`. -/
theorem bce_upto (c : Dev nD) (n : Nat) (h : n < cfg1.N) :
    outsAt1 V c n h o11 = ∑ t : Fin (n + 1), bcePart V c ⟨t.val, lt_of_lt_of_le t.isLt h⟩ := by
  refine running_sum (bcePart V c) (fun n h => outsAt1 V c n h o11) (fun h0 => ?_) (fun n hn => ?_) n h
  · show outsAt1 V c 0 h0 o11 = 0 + bcePart V c ⟨0, h0⟩
    rw [outsAt1_A V c ⟨0, h0⟩ rfl, first_bce, pay2_apply, zero_block]
    rfl
  · show outsAt1 V c (n + 1) hn o11 = outsAt1 V c n (Nat.lt_of_succ_lt hn) o11 + bcePart V c ⟨n + 1, hn⟩
    have hN : cfg1.N = 128 := N_1
    have hB : ¬(⟨n + 1, hn⟩ : Fin cfg1.N).val % 128 = 0 := by dsimp only; omega
    rw [outsAt1_B V c ⟨n + 1, hn⟩ hB, later_bce, pay2_apply]
    rfl

/-! ## A point's blocks are tiles of the arrays -/

/-- Point `t` reads block row `t / 8`, block column `t % 8` of both arrays. -/
theorem tile_index0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
theorem tile_index1 : ∀ t : Fin cfg1.N, win1_1.index t 0 = t.val / 8 ∧ win1_1.index t 1 = t.val % 8 :=
  (by decide +kernel : ∀ t : Fin grid1.N, win1_1.index t 0 = t.val / 8 ∧ win1_1.index t 1 = t.val % 8)

/-- Entry (r, k) of point `t`'s block of the logits is entry (512·(t / 8) + r, 1024·(t % 8) + k) of the array. -/
theorem blk0_apply (c : Dev nD) (t : Fin cfg1.N) (r : Fin 512) (k : Fin 1024)
    (hr : t.val / 8 * 512 + r.val < 8192) (hk : t.val % 8 * 1024 + k.val < 8192) :
    (iblk1 V c 0 t : Vec Ideal S512x1024 .f32) (ix2 r k)
      = (V c main_arg2 : Mat 8192 8192) (ix2 ⟨t.val / 8 * 512 + r.val, hr⟩ ⟨t.val % 8 * 1024 + k.val, hk⟩) := by
  have hi := tile_index0 t
  unfold iblk1
  rw [View.read_apply]
  show V c main_arg2 _ = V c main_arg2 _
  congr 1
  funext a
  apply Fin.ext
  match a with
  | ⟨0, _⟩ => show win1_0.index t 0 * 512 + 1 * r.val = t.val / 8 * 512 + r.val; rw [hi.1]; omega
  | ⟨1, _⟩ => show win1_0.index t 1 * 1024 + 1 * k.val = t.val % 8 * 1024 + k.val; rw [hi.2]; omega

/-- The same for the labels. -/
theorem blk1_apply (c : Dev nD) (t : Fin cfg1.N) (r : Fin 512) (k : Fin 1024)
    (hr : t.val / 8 * 512 + r.val < 8192) (hk : t.val % 8 * 1024 + k.val < 8192) :
    (iblk1 V c 1 t : Vec Ideal S512x1024 .f32) (ix2 r k)
      = (V c main_v24 : Mat 8192 8192) (ix2 ⟨t.val / 8 * 512 + r.val, hr⟩ ⟨t.val % 8 * 1024 + k.val, hk⟩) := by
  have hi := tile_index1 t
  unfold iblk1
  rw [View.read_apply]
  show V c main_v24 _ = V c main_v24 _
  congr 1
  funext a
  apply Fin.ext
  match a with
  | ⟨0, _⟩ => show win1_1.index t 0 * 512 + 1 * r.val = t.val / 8 * 512 + r.val; rw [hi.1]; omega
  | ⟨1, _⟩ => show win1_1.index t 1 * 1024 + 1 * k.val = t.val % 8 * 1024 + k.val; rw [hi.2]; omega

theorem h127 : 127 < cfg1.N := by rw [show cfg1.N = 128 from N_1]; decide

/-- So the 128 points' sums add up to the sum over all entries. -/
theorem bce_all (c : Dev nD) :
    outsAt1 V c 127 h127 o11 = bceSum (V c main_arg2 : Mat 8192 8192) (V c main_v24 : Mat 8192 8192) := by
  rw [bce_upto V c 127 h127]
  unfold bceSum
  rw [sum_tiles fun R C => bce ((V c main_arg2 : Mat 8192 8192) (ix2 R C)) ((V c main_v24 : Mat 8192 8192) (ix2 R C))]
  refine Finset.sum_congr rfl fun t _ => Finset.sum_congr rfl fun r _ => Finset.sum_congr rfl fun k _ => ?_
  exact congrArg₂ bce (blk0_apply V c _ r k _ _) (blk1_apply V c _ r k _ _)

/-! ## The result array after the region -/

/-- The last point. -/
def tLast : Fin cfg1.N := ⟨127, h127⟩

/-- The result's block never moves: its index is (0, 0) at every point. -/
theorem out_index : ∀ t : Fin cfg1.N, win1_2.index t 0 = 0 ∧ win1_2.index t 1 = 0 :=
  (by decide +kernel : ∀ t : Fin grid1.N, win1_2.index t 0 = 0 ∧ win1_2.index t 1 = 0)

/-- And it is never clipped: the transfer moves all of its one entry at every point. -/
theorem out_xsize : ∀ t : Fin cfg1.N, win1_2.xsize (grid1.coords t) 0 = 1 ∧ win1_2.xsize (grid1.coords t) 1 = 1 :=
  (by decide +kernel : ∀ t : Fin grid1.N, win1_2.xsize (grid1.coords t) 0 = 1 ∧ win1_2.xsize (grid1.coords t) 1 = 1)

/-- The total after a point numbered 127 is the total after point 127. -/
theorem outs_at_last (c : Dev nD) (n : Nat) (hn : n < cfg1.N) (e : n = 127) :
    outsAt1 V c n hn = outsAt1 V c 127 h127 := by
  subst e; rfl

/-- The one write-back of the total, after the last point, writes the total after point 127: block (0, 0) of a
    [1, 1] array read through zero offsets is the array. -/
theorem flushed_bce (c : Dev nD) (t : Fin cfg1.N) (hf : (cfg1.win 2).flush t = true) :
    (dat1 V c).flushed 2 t = ((cfg1.win 2).blk t).view.read (Elt Ideal) (outsAt1 V c 127 h127 : Buf (Elt Ideal) ((c : Thread nD τ).loc main_v25)) := by
  have hN : cfg1.N = 128 := N_1
  have h3 : t.val = 127 := by have := (flush1_2 t).mp hf; have := t.isLt; omega
  show (cfg1.win 2).cut (grid1.coords t) ((dat1 V c).after 2 t) = _
  rw [after1_2, outs_at_last V c t.val t.isLt h3]
  have hz' : (fun a => win1_2.index t a * main_v25.ty.shape.size a) = fun _ => 0 := funext fun a => by
    match a with
    | ⟨0, _⟩ => show win1_2.index t 0 * _ = 0; rw [(out_index t).1]; exact Nat.zero_mul _
    | ⟨1, _⟩ => show win1_2.index t 1 * _ = 0; rw [(out_index t).2]; exact Nat.zero_mul _
  exact (Memref.read_access_unit_zero (Elt Ideal) main_v25 hz' (fun a => by rw [congrFun hz' a]; simp) _).symm

/-- So the result array ends at the total after point 127. -/
theorem final_bce (c : Dev nD) :
    (dat1 V c).arrAt 2 cfg1.N = (outsAt1 V c 127 h127 : Buf (Elt Ideal) ((c : Thread nD τ).loc main_v25)) :=
  (dat1 V c).arrAt_eq_of_cover 2 _ (flushed_bce V c) fun i =>
    ⟨tLast, (flush1_2 tLast).mpr (by show 127 % 128 = 127; rfl), by
      show i ∈ ((View.whole main_v25).slice (win1_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_2.index tLast 0 * win1_2.size 0 ≤ (i 0 : Nat) ∧ (i 0 : Nat) < win1_2.index tLast 0 * win1_2.size 0 + win1_2.xsize (grid1.coords tLast) 0
                  rw [(out_index tLast).1, (out_xsize tLast).1]; omega
      | ⟨1, _⟩ => show win1_2.index tLast 1 * win1_2.size 1 ≤ (i 1 : Nat) ∧ (i 1 : Nat) < win1_2.index tLast 1 * win1_2.size 1 + win1_2.xsize (grid1.coords tLast) 1
                  rw [(out_index tLast).2, (out_xsize tLast).2]; omega⟩

/-- The result array's one entry is the sum of the cross-entropies over all entries of the two arrays. -/
theorem bce_array (c : Dev nD) :
    (dat1 V c).arrAt 2 cfg1.N o11 = bceSum (V c main_arg2 : Mat 8192 8192) (V c main_v24 : Mat 8192 8192) := by
  rw [final_bce]; exact bce_all V c

end Cert.KernelIdeal.InteractionRegion

end
-- ==== Proof.KernelValue.lean ====
/-
  The kernel's four results as the loss of its arguments, on the extended reals.

  Reading the program's final memory back through its four segments:
    * the closing host operations leave the two node results as they found them, divide the interaction region's
      total by the entry count, and form the weighted total of the three quotients;
    * the interaction region leaves in its result array the sum over all entries of the cross-entropy of the
      logits against the adjacency matrix, both as the region found them;
    * the middle host operations divide the node region's two totals by the entry count and the row count, build
      the adjacency matrix from the edge list, and touch no argument;
    * the node region leaves the sums of squared differences and of one minus the rows' correlations of the two
      node arrays as launched.
  The adjacency matrix is kept as what the middle host operations leave in its buffer.
-/
import proofs.«126557_j34342558499116_2_alg».proof.Proof.Gen.KernelIdeal.Frame
import proofs.«126557_j34342558499116_2_alg».proof.Proof.NodeRegion
import proofs.«126557_j34342558499116_2_alg».proof.Proof.InteractionRegion
import proofs.«126557_j34342558499116_2_alg».proof.Proof.LibColumnSum
import Idealize.ShloMosaic.Lib.Pipeline.Value
import Idealize.ShloMosaic.Lib.StableHlo.Run
import Idealize.ShloMosaic.Lib.Tactic

set_option maxRecDepth 16384

noncomputable section

namespace Cert.KernelIdeal.Results

open Cert.KernelIdeal Cert.KernelIdeal.Gen
open Idealize.ShloMosaic Idealize.ShloMosaic.TcCoe Idealize.SL.Sem Idealize.ShloMosaic.Tactic Idealize.ShloMosaic.ValueIdx
open Idealize.ShloMosaic.StableHlo
open Idealize.ShloMosaic.Pipeline (Dat)
open Cert.Loss Cert.Lib.ColumnSum

variable (m : (ℓ : Loc nD τ sig) → Buf (Elt Ideal) ℓ) (ρ : Dev nD → PrngReg)

/-- The two node arrays, the logits and the adjacency matrix the interaction region reads. -/
abbrev pred (c : Dev nD) : Mat 8192 256 := m ((c.tc : Thread nD τ).loc main_arg0)
abbrev target (c : Dev nD) : Mat 8192 256 := m ((c.tc : Thread nD τ).loc main_arg1)
abbrev logits (c : Dev nD) : Mat 8192 8192 := m ((c.tc : Thread nD τ).loc main_arg2)
abbrev adjacency (c : Dev nD) : Mat 8192 8192 := V2 m ρ c main_v24

/-! ## The node region's two quotients -/

/-- After the middle host operations the mean squared difference is in its buffer. -/
theorem mid_mse (c : Dev nD) : W2 m ρ c (Proc.devRef .tc main_v2) = fun _ => mseLoss (pred m c) (target m c) := by
  have e : W2 m ρ c (Proc.devRef .tc main_v2)
      = Host.divf (F := Ideal) (shapeCast S_ (W1 m ρ c (Proc.devRef .tc main_v0_0)) shapeCasts_S1x1_S_) (constant (F := Ideal) S_ .f32 0x4A000000#32) := by
    show StableHlo.after hostOps1 (W1 m ρ c) (Proc.devRef .tc main_v2) = _
    after_results_simp <;> rfl
  rw [e, (W1_arr m ρ c 2 : W1 m ρ c (Proc.devRef .tc main_v0_0) = _)]
  funext j
  exact congrArg (Ideal.div · (Ideal.ofBits .f32 0x4A000000#32))
    ((blockAsScalar_apply _ _ j).trans (NodeRegion.sq_array (V0 m ρ) c))

/-- After the middle host operations the mean of one minus the correlation is in its buffer. -/
theorem mid_corr (c : Dev nD) : W2 m ρ c (Proc.devRef .tc main_v4) = fun _ => corrLoss (pred m c) (target m c) := by
  have e : W2 m ρ c (Proc.devRef .tc main_v4)
      = Host.divf (F := Ideal) (shapeCast S_ (W1 m ρ c (Proc.devRef .tc main_v0_1)) shapeCasts_S1x1_S_) (constant (F := Ideal) S_ .f32 0x46000000#32) := by
    show StableHlo.after hostOps1 (W1 m ρ c) (Proc.devRef .tc main_v4) = _
    after_results_simp <;> rfl
  rw [e, (W1_arr m ρ c 3 : W1 m ρ c (Proc.devRef .tc main_v0_1) = _)]
  funext j
  exact congrArg (Ideal.div · (Ideal.ofBits .f32 0x46000000#32))
    ((blockAsScalar_apply _ _ j).trans (NodeRegion.corr_array (V0 m ρ) c))

/-- The interaction region writes neither quotient. -/
theorem late_mse (c : Dev nD) : W3 m ρ c (Proc.devRef .tc main_v2) = fun _ => mseLoss (pred m c) (target m c) :=
  (W3_of_ne m ρ c main_v2 (by decide)).trans (mid_mse m ρ c)
theorem late_corr (c : Dev nD) : W3 m ρ c (Proc.devRef .tc main_v4) = fun _ => corrLoss (pred m c) (target m c) :=
  (W3_of_ne m ρ c main_v4 (by decide)).trans (mid_corr m ρ c)

/-! ## The interaction region's total -/

/-- The middle host operations do not write the logits, and the node region does not either. -/
theorem mid_logits (c : Dev nD) : V2 m ρ c main_arg2 = m ((c.tc : Thread nD τ).loc main_arg2) := by
  have e : W2 m ρ c (Proc.devRef .tc main_arg2) = W1 m ρ c (Proc.devRef .tc main_arg2) := by
    show StableHlo.after hostOps1 (W1 m ρ c) (Proc.devRef .tc main_arg2) = _
    after_results_simp <;> rfl
  exact e.trans (W1_of_ne m ρ c main_arg2 (by decide))

/-- The interaction region's result array holds the sum of the cross-entropies over all entries. -/
theorem late_total (c : Dev nD) :
    W3 m ρ c (Proc.devRef .tc main_v25) (ix2 (0 : Fin 1) (0 : Fin 1)) = bceSum (logits m c) (adjacency m ρ c) := by
  rw [(W3_arr m ρ c 2 : W3 m ρ c (Proc.devRef .tc main_v25) = _)]
  refine (InteractionRegion.bce_array (V2 m ρ) c).trans ?_
  rw [mid_logits]

/-! ## The closing host operations -/

theorem end_mse (c : Dev nD) : W4 m ρ c (Proc.devRef .tc main_v2) = fun _ => mseLoss (pred m c) (target m c) := by
  have e : W4 m ρ c (Proc.devRef .tc main_v2) = W3 m ρ c (Proc.devRef .tc main_v2) := by
    show StableHlo.after hostOps2 (W3 m ρ c) (Proc.devRef .tc main_v2) = _
    after_results_simp <;> rfl
  exact e.trans (late_mse m ρ c)

theorem end_corr (c : Dev nD) : W4 m ρ c (Proc.devRef .tc main_v4) = fun _ => corrLoss (pred m c) (target m c) := by
  have e : W4 m ρ c (Proc.devRef .tc main_v4) = W3 m ρ c (Proc.devRef .tc main_v4) := by
    show StableHlo.after hostOps2 (W3 m ρ c) (Proc.devRef .tc main_v4) = _
    after_results_simp <;> rfl
  exact e.trans (late_corr m ρ c)

theorem end_inter (c : Dev nD) :
    W4 m ρ c (Proc.devRef .tc main_v27) = fun _ => interLoss (logits m c) (adjacency m ρ c) := by
  have e : W4 m ρ c (Proc.devRef .tc main_v27)
      = Host.divf (F := Ideal) (shapeCast S_ (W3 m ρ c (Proc.devRef .tc main_v25)) shapeCasts_S1x1_S_) (constant (F := Ideal) S_ .f32 0x4C800000#32) := by
    show StableHlo.after hostOps2 (W3 m ρ c) (Proc.devRef .tc main_v27) = _
    after_results_simp <;> rfl
  rw [e]
  funext j
  exact congrArg (Ideal.div · (Ideal.ofBits .f32 0x4C800000#32))
    ((blockAsScalar_apply _ _ j).trans (late_total m ρ c))

theorem end_total (c : Dev nD) :
    W4 m ρ c (Proc.devRef .tc main_v32)
      = fun _ => total (pred m c) (target m c) (logits m c) (adjacency m ρ c) := by
  have e : W4 m ρ c (Proc.devRef .tc main_v32)
      = addf (F := Ideal) (addf (F := Ideal) (mulf (F := Ideal) (constant (F := Ideal) S_ .f32 0x3F19999A#32) (W3 m ρ c (Proc.devRef .tc main_v2)))
            (mulf (F := Ideal) (constant (F := Ideal) S_ .f32 0x3E4CCCCD#32) (W3 m ρ c (Proc.devRef .tc main_v4))))
          (mulf (F := Ideal) (constant (F := Ideal) S_ .f32 0x3E4CCCCD#32)
            (Host.divf (F := Ideal) (shapeCast S_ (W3 m ρ c (Proc.devRef .tc main_v25)) shapeCasts_S1x1_S_) (constant (F := Ideal) S_ .f32 0x4C800000#32))) := by
    show StableHlo.after hostOps2 (W3 m ρ c) (Proc.devRef .tc main_v32) = _
    after_results_simp <;> rfl
  rw [e, late_mse, late_corr]
  funext j
  show Ideal.ofBits .f32 0x3F19999A#32 * mseLoss (pred m c) (target m c)
        + Ideal.ofBits .f32 0x3E4CCCCD#32 * corrLoss (pred m c) (target m c)
        + Ideal.ofBits .f32 0x3E4CCCCD#32
          * Ideal.div (shapeCast S_ (W3 m ρ c (Proc.devRef .tc main_v25)) shapeCasts_S1x1_S_ j) (Ideal.ofBits .f32 0x4C800000#32) = _
  rw [blockAsScalar_apply, late_total]
  rfl

end Cert.KernelIdeal.Results

end
-- ==== Proof.RefValue.lean ====
/-
  The host program's four results, read as the loss of the specification.

  Each result of the host program is a chain of whole-array operations. Read at an index, a pointwise operation
  is the scalar operation on its operands at that index, a broadcast reads its operand at the index with the new
  axes dropped, and a sum along the columns of row `r` is the sum over `k` of its operand at `(r, k)` added to an
  initial value that is the zero word, hence nothing. So:
    * the mean squared difference is the sum over all entries, row by row, of (P - T)², over the entry count;
    * a row's mean is the row's sum over 256, the centred rows give the three row sums of the correlation, and
      the mean of one minus the correlation is the sum over the rows over the row count;
    * the cross-entropy at an entry is max(x, 0) - x·z + log(1 + exp(-|x|)) with |x| = max(x, -x), summed over
      all entries row by row, over the entry count; the label array is kept as the term the program builds it by;
    * the total is the three parts weighted and added left to right.
  Nothing here regroups a sum or uses finiteness: both sides are the same expression once the indices are named.
-/
import proofs.«126557_j34342558499116_2_alg».proof.Proof.Gen.ReferenceIdeal.Read
import proofs.«126557_j34342558499116_2_alg».proof.Proof.Spec
import Idealize.ShloMosaic.Lib.ValueIdx
import Idealize.ShloMosaic.PureOps.Ideal
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## Indices -/

/-- A length-8192 index set is its one coordinate's range … -/
def rowEquiv : S8192.Idx ≃ Fin 8192 where
  toFun i := i 0
  invFun r := ix1 r
  left_inv i := (eq_ix1 i).symm
  right_inv _ := rfl

/-- … so a sum over it is the sum over the rows. -/
theorem sum_rows (f : S8192.Idx → EReal) : ∑ j, f j = ∑ r : Fin 8192, f (ix1 r) := by
  rw [← Equiv.sum_comp rowEquiv.symm f]
  rfl

/-- Entry `k` of row `r`, as each of the five row sums spells it. -/
theorem idx_v4 (r : Fin 8192) (k : Fin 256) : idx_main_v4 (ix1 r) k = ix2 r k :=
  funext fun a => Fin.ext (by match a with | ⟨0, _⟩ => rfl | ⟨1, _⟩ => rfl)
theorem idx_v10 (r : Fin 8192) (k : Fin 256) : idx_main_v10 (ix1 r) k = ix2 r k :=
  funext fun a => Fin.ext (by match a with | ⟨0, _⟩ => rfl | ⟨1, _⟩ => rfl)
theorem idx_v17 (r : Fin 8192) (k : Fin 256) : idx_main_v17 (ix1 r) k = ix2 r k :=
  funext fun a => Fin.ext (by match a with | ⟨0, _⟩ => rfl | ⟨1, _⟩ => rfl)
theorem idx_v19 (r : Fin 8192) (k : Fin 256) : idx_main_v19 (ix1 r) k = ix2 r k :=
  funext fun a => Fin.ext (by match a with | ⟨0, _⟩ => rfl | ⟨1, _⟩ => rfl)
theorem idx_v22 (r : Fin 8192) (k : Fin 256) : idx_main_v22 (ix1 r) k = ix2 r k :=
  funext fun a => Fin.ext (by match a with | ⟨0, _⟩ => rfl | ⟨1, _⟩ => rfl)

/-- A per-row value spread over the row's columns is read, at entry `(r, c)`, at row `r`. -/
theorem idx_v5_v8 (r : Fin 8192) (c : Fin 256) : idx_main_v5 (idx_main_v8 (ix2 r c)) = ix1 r :=
  funext fun a => Fin.ext (by match a with | ⟨0, _⟩ => rfl)
theorem idx_v11_v14 (r : Fin 8192) (c : Fin 256) : idx_main_v11 (idx_main_v14 (ix2 r c)) = ix1 r :=
  funext fun a => Fin.ext (by match a with | ⟨0, _⟩ => rfl)

/-! ## The mean squared difference -/

theorem mse_eq (x0 x1 : (⟨S8192x256, .f32⟩ : BufTy).Contents (Elt Ideal)) :
    val_main_v3 (F := Ideal) x0 x1 = fun _ => Cert.Loss.mseLoss x0 x1 := by
  funext i
  rw [val_main_v3_apply, val_main_v2_apply, val_main_cst_apply, val_main_cst_0_apply, sum_idx2]
  simp only [val_main_v1_apply, val_main_v0_apply, Ideal.ofBits_def, Ideal.ofBits_zero_f32, zero_add,
    Ideal.hostDivf_def, Ideal.subf_def, Ideal.mulf_def]
  rfl

/-! ## The rows' means and the centred rows -/

/-- The sum along row `r` of the first array. -/
theorem v4_at (x0 : (⟨S8192x256, .f32⟩ : BufTy).Contents (Elt Ideal)) (r : Fin 8192) :
    val_main_v4 (F := Ideal) x0 (ix1 r) = ∑ k : Fin 256, x0 (ix2 r k) := by
  rw [val_main_v4_apply, val_main_cst_1_apply]
  simp only [idx_v4, Ideal.ofBits_def, Ideal.ofBits_zero_f32, zero_add]

/-- The sum along row `r` of the second array. -/
theorem v10_at (x1 : (⟨S8192x256, .f32⟩ : BufTy).Contents (Elt Ideal)) (r : Fin 8192) :
    val_main_v10 (F := Ideal) x1 (ix1 r) = ∑ k : Fin 256, x1 (ix2 r k) := by
  rw [val_main_v10_apply, val_main_cst_3_apply]
  simp only [idx_v10, Ideal.ofBits_def, Ideal.ofBits_zero_f32, zero_add]

/-- The first array's row mean, spread over the row. -/
theorem v8_at (x0 : (⟨S8192x256, .f32⟩ : BufTy).Contents (Elt Ideal)) (r : Fin 8192) (c : Fin 256) :
    val_main_v8 (F := Ideal) x0 (ix2 r c) = Cert.Loss.rowMean (Cert.Loss.row x0 r) := by
  rw [val_main_v8_apply, val_main_v7_apply, val_main_v5_apply, val_main_v6_apply, val_main_cst_2_apply, idx_v5_v8,
    v4_at]
  rfl

/-- The second array's row mean, spread over the row. -/
theorem v14_at (x1 : (⟨S8192x256, .f32⟩ : BufTy).Contents (Elt Ideal)) (r : Fin 8192) (c : Fin 256) :
    val_main_v14 (F := Ideal) x1 (ix2 r c) = Cert.Loss.rowMean (Cert.Loss.row x1 r) := by
  rw [val_main_v14_apply, val_main_v13_apply, val_main_v11_apply, val_main_v12_apply, val_main_cst_4_apply,
    idx_v11_v14, v10_at]
  rfl

/-- The first array centred by its row mean. -/
theorem v9_at (x0 : (⟨S8192x256, .f32⟩ : BufTy).Contents (Elt Ideal)) (r : Fin 8192) (c : Fin 256) :
    val_main_v9 (F := Ideal) x0 (ix2 r c) = x0 (ix2 r c) - Cert.Loss.rowMean (Cert.Loss.row x0 r) := by
  rw [val_main_v9_apply, v8_at]
  rfl

/-- The second array centred by its row mean. -/
theorem v15_at (x1 : (⟨S8192x256, .f32⟩ : BufTy).Contents (Elt Ideal)) (r : Fin 8192) (c : Fin 256) :
    val_main_v15 (F := Ideal) x1 (ix2 r c) = x1 (ix2 r c) - Cert.Loss.rowMean (Cert.Loss.row x1 r) := by
  rw [val_main_v15_apply, v14_at]
  rfl

/-! ## The three row sums of the correlation -/

/-- The centred rows' inner product. -/
theorem v17_at (x0 x1 : (⟨S8192x256, .f32⟩ : BufTy).Contents (Elt Ideal)) (r : Fin 8192) :
    val_main_v17 (F := Ideal) x0 x1 (ix1 r)
      = ∑ k : Fin 256, (x0 (ix2 r k) - Cert.Loss.rowMean (Cert.Loss.row x0 r))
          * (x1 (ix2 r k) - Cert.Loss.rowMean (Cert.Loss.row x1 r)) := by
  rw [val_main_v17_apply, val_main_cst_5_apply]
  simp only [idx_v17, val_main_v16_apply, v9_at, v15_at, Ideal.ofBits_def, Ideal.ofBits_zero_f32, zero_add,
    Ideal.mulf_def]

/-- The first centred row's squared norm. -/
theorem v19_at (x0 : (⟨S8192x256, .f32⟩ : BufTy).Contents (Elt Ideal)) (r : Fin 8192) :
    val_main_v19 (F := Ideal) x0 (ix1 r)
      = ∑ k : Fin 256, (x0 (ix2 r k) - Cert.Loss.rowMean (Cert.Loss.row x0 r))
          * (x0 (ix2 r k) - Cert.Loss.rowMean (Cert.Loss.row x0 r)) := by
  rw [val_main_v19_apply, val_main_cst_6_apply]
  simp only [idx_v19, val_main_v18_apply, v9_at, Ideal.ofBits_def, Ideal.ofBits_zero_f32, zero_add, Ideal.mulf_def]

/-- The second centred row's squared norm. -/
theorem v22_at (x1 : (⟨S8192x256, .f32⟩ : BufTy).Contents (Elt Ideal)) (r : Fin 8192) :
    val_main_v22 (F := Ideal) x1 (ix1 r)
      = ∑ k : Fin 256, (x1 (ix2 r k) - Cert.Loss.rowMean (Cert.Loss.row x1 r))
          * (x1 (ix2 r k) - Cert.Loss.rowMean (Cert.Loss.row x1 r)) := by
  rw [val_main_v22_apply, val_main_cst_7_apply]
  simp only [idx_v22, val_main_v21_apply, v15_at, Ideal.ofBits_def, Ideal.ofBits_zero_f32, zero_add, Ideal.mulf_def]

/-- One minus the correlation of row `r` of the two arrays. -/
theorem v29_at (x0 x1 : (⟨S8192x256, .f32⟩ : BufTy).Contents (Elt Ideal)) (r : Fin 8192) :
    val_main_v29 (F := Ideal) x0 x1 (ix1 r) = Cert.Loss.rowCorr (Cert.Loss.row x0 r) (Cert.Loss.row x1 r) := by
  rw [val_main_v29_apply, val_main_v28_apply, val_main_cst_9_apply, val_main_v27_apply, v17_at, val_main_v26_apply,
    val_main_v24_apply, val_main_v20_apply, v19_at, val_main_v23_apply, v22_at, val_main_v25_apply,
    val_main_cst_8_apply]
  rfl

theorem corr_eq (x0 x1 : (⟨S8192x256, .f32⟩ : BufTy).Contents (Elt Ideal)) :
    val_main_v31 (F := Ideal) x0 x1 = fun _ => Cert.Loss.corrLoss x0 x1 := by
  funext i
  rw [val_main_v31_apply, val_main_v30_apply, val_main_cst_10_apply, val_main_cst_11_apply, sum_rows]
  simp only [v29_at, Ideal.ofBits_def, Ideal.ofBits_zero_f32, zero_add, Ideal.hostDivf_def]
  rfl

/-! ## The cross-entropy -/

/-- The stable cross-entropy of the logit at an entry against the label at that entry. -/
theorem v60_at (x2 : (⟨S8192x8192, .f32⟩ : BufTy).Contents (Elt Ideal))
    (x3 : (⟨S2x262144, .i32⟩ : BufTy).Contents (Elt Ideal)) (j : S8192x8192.Idx) :
    val_main_v60 (F := Ideal) x2 x3 j = Cert.Loss.bce (x2 j) (val_main_v51 (F := Ideal) x3 j) := by
  rw [val_main_v60_apply, val_main_v55_apply, val_main_v53_apply, val_main_v52_apply, val_main_cst_17_apply,
    val_main_v54_apply, val_main_v59_apply, val_main_v58_apply, val_main_v57_apply, val_main_v56_apply]
  simp only [Cert.Loss.bce, Ideal.ofBits_def, Ideal.ofBits_zero_f32, Ideal.addf_def, Ideal.subf_def, Ideal.mulf_def,
    Ideal.maximumf_def, Ideal.hostUnary_exp_def, Ideal.hostUnary_log1p_def, Ideal.hostNegf_def, Ideal.hostAbsf_def,
    Ideal.negf_def, Ideal.absf_def]

theorem inter_eq (x2 : (⟨S8192x8192, .f32⟩ : BufTy).Contents (Elt Ideal))
    (x3 : (⟨S2x262144, .i32⟩ : BufTy).Contents (Elt Ideal)) :
    val_main_v62 (F := Ideal) x2 x3 = fun _ => Cert.Loss.interLoss x2 (val_main_v51 (F := Ideal) x3) := by
  funext i
  rw [val_main_v62_apply, val_main_v61_apply, val_main_cst_18_apply, val_main_cst_19_apply, sum_idx2]
  simp only [v60_at, Cert.Loss.interLoss, Cert.Loss.bceSum, Ideal.ofBits_def, Ideal.ofBits_zero_f32, zero_add,
    Ideal.hostDivf_def]

/-! ## The total -/

theorem total_eq (x0 x1 : (⟨S8192x256, .f32⟩ : BufTy).Contents (Elt Ideal))
    (x2 : (⟨S8192x8192, .f32⟩ : BufTy).Contents (Elt Ideal))
    (x3 : (⟨S2x262144, .i32⟩ : BufTy).Contents (Elt Ideal)) :
    val_main_v67 (F := Ideal) x0 x1 x2 x3
      = fun _ => Cert.Loss.total x0 x1 x2 (val_main_v51 (F := Ideal) x3) := by
  funext i
  rw [val_main_v67_apply, val_main_v65_apply, val_main_v63_apply, val_main_v64_apply, val_main_v66_apply,
    val_main_cst_20_apply, val_main_cst_21_apply, val_main_cst_22_apply, mse_eq, corr_eq, inter_eq]
  simp only [Cert.Loss.total, Ideal.ofBits_def, Ideal.addf_def, Ideal.mulf_def]

end Cert.ReferenceIdeal.RefValue

end
-- ==== Proof.Adjacency.lean ====
/-
  Both programs build the adjacency matrix from the edge list by the same host operations.

  Each takes the two rows of the [2, 262144] edge list, adds 8192 to a negative entry, pairs the two rows as
  [262144, 2] indices, and scatters the constant one into an [8192, 8192] array of zeros. The two chains of
  operations are the same term of the edge list, so what the kernel's middle host operations leave in the
  adjacency buffer is the reference's scatter stage of the edge list as launched.
-/
import proofs.«126557_j34342558499116_2_alg».proof.Proof.Gen.KernelIdeal.Frame
import proofs.«126557_j34342558499116_2_alg».proof.Proof.Gen.ReferenceIdeal.Read
import Idealize.ShloMosaic.Lib.StableHlo.Run
import Idealize.ShloMosaic.Lib.Tactic

set_option maxRecDepth 16384

noncomputable section

namespace Cert.Adjacency

open Idealize.ShloMosaic Idealize.ShloMosaic.TcCoe Idealize.SL.Sem Idealize.ShloMosaic.Tactic Idealize.ShloMosaic.StableHlo
open Cert.KernelIdeal Cert.KernelIdeal.Gen

variable (m : (ℓ : Loc nD τ sig) → Buf (Elt Ideal) ℓ) (ρ : Dev nD → PrngReg)

/-- The kernel's chain of host operations on an edge list is the reference's scatter stage of it. -/
theorem same_chain (e : (⟨S2x262144, .i32⟩ : BufTy).Contents (Elt Ideal)) :
    Host.scatter scatter_S8192x8192_S262144x2_S262144_n_01_01_1 (fun _ b => b)
        (broadcastInDim S8192x8192 ![] bcast_S_S8192x8192 (constant (F := Ideal) S_ .f32 0x00000000#32))
        (concatenate S262144x2 1
          [⟨S262144x1, broadcastInDim S262144x1 ![0] bcast_S262144_S262144x1_0
              (select (cmpi .slt (shapeCast S262144 (extractStridedSlice S1x262144 ![0, 0] e slices_S2x262144_S1x262144_0_0) shapeCasts_S1x262144_S262144)
                  (broadcastInDim S262144 ![] bcast_S_S262144 (constantI S_ 32 0#32)))
                (addi (shapeCast S262144 (extractStridedSlice S1x262144 ![0, 0] e slices_S2x262144_S1x262144_0_0) shapeCasts_S1x262144_S262144)
                  (broadcastInDim S262144 ![] bcast_S_S262144 (constantI S_ 32 8192#32)))
                (shapeCast S262144 (extractStridedSlice S1x262144 ![0, 0] e slices_S2x262144_S1x262144_0_0) shapeCasts_S1x262144_S262144))⟩,
           ⟨S262144x1, broadcastInDim S262144x1 ![0] bcast_S262144_S262144x1_0
              (select (cmpi .slt (shapeCast S262144 (extractStridedSlice S1x262144 ![1, 0] e slices_S2x262144_S1x262144_1_0) shapeCasts_S1x262144_S262144)
                  (broadcastInDim S262144 ![] bcast_S_S262144 (constantI S_ 32 0#32)))
                (addi (shapeCast S262144 (extractStridedSlice S1x262144 ![1, 0] e slices_S2x262144_S1x262144_1_0) shapeCasts_S1x262144_S262144)
                  (broadcastInDim S262144 ![] bcast_S_S262144 (constantI S_ 32 8192#32)))
                (shapeCast S262144 (extractStridedSlice S1x262144 ![1, 0] e slices_S2x262144_S1x262144_1_0) shapeCasts_S1x262144_S262144))⟩]
          concatenates_S262144x1_S262144x1_S262144x2_d1)
        (broadcastInDim S262144 ![] bcast_S_S262144 (constant (F := Ideal) S_ .f32 0x3F800000#32))
      = Cert.ReferenceIdeal.Read.val_main_v51 (F := Ideal) e := rfl

/-- What the middle host operations leave in the adjacency buffer is that chain of the edge list they find. -/
theorem mid_chain (c : Dev nD) :
    W2 m ρ c (Proc.devRef .tc main_v24)
      = Cert.ReferenceIdeal.Read.val_main_v51 (F := Ideal) (W1 m ρ c (Proc.devRef .tc main_arg3)) := by
  refine Eq.trans ?_ (same_chain (W1 m ρ c (Proc.devRef .tc main_arg3)))
  show StableHlo.after hostOps1 (W1 m ρ c) (Proc.devRef .tc main_v24) = _
  after_results_simp <;> rfl

/-- The node region does not write the edge list, so the adjacency matrix the interaction region reads is the
    reference's scatter stage of the edge list as launched. -/
theorem adjacency_eq (c : Dev nD) :
    V2 m ρ c main_v24
      = Cert.ReferenceIdeal.Read.val_main_v51 (F := Ideal) (m ((c.tc : Thread nD τ).loc main_arg3)) :=
  (mid_chain m ρ c).trans (congrArg (Cert.ReferenceIdeal.Read.val_main_v51 (F := Ideal)) (W1_of_ne m ρ c main_arg3 (by decide)))

end Cert.Adjacency

end
-- ==== Proof.lean ====
/-
  The kernel and its reference compute the same loss.

  The loss has three parts — the mean squared difference of two [8192, 256] node arrays, the mean over the rows of
  one minus the rows' Pearson correlation, and the mean binary cross-entropy of an [8192, 8192] array of logits
  against the adjacency matrix of an edge list — and their weighted total. The reference sums each part in one go.
  The kernel sums the node parts over 8 blocks of 1024 rows and the cross-entropy over a 16 × 8 tiling, each into a
  running total that starts at zero. On the extended reals a finite sum may be regrouped freely, so both programs
  end at the same four numbers; no entry needs to be finite for that, and the precondition is not used. The
  idealized kernel is the kernel's own text read on the extended reals: nothing was rewritten, so there is nothing
  to preserve. Each program's frame — it terminates, nothing faults, the arguments end as launched — is the
  generated one for the two kernels and the reference's run with its results dropped.
-/
import proofs.«126557_j34342558499116_2_alg».proof.Defs
import proofs.«126557_j34342558499116_2_alg».proof.Proof.Gen.Kernel
import proofs.«126557_j34342558499116_2_alg».proof.Proof.Gen.Kernel.Skeleton
import proofs.«126557_j34342558499116_2_alg».proof.Proof.Gen.Kernel.Launch
import proofs.«126557_j34342558499116_2_alg».proof.Proof.Gen.Kernel.Points
import proofs.«126557_j34342558499116_2_alg».proof.Proof.Gen.Kernel.Frame
import proofs.«126557_j34342558499116_2_alg».proof.Proof.Gen.KernelIdeal
import proofs.«126557_j34342558499116_2_alg».proof.Proof.Gen.KernelIdeal.Skeleton
import proofs.«126557_j34342558499116_2_alg».proof.Proof.Gen.KernelIdeal.Launch
import proofs.«126557_j34342558499116_2_alg».proof.Proof.Gen.KernelIdeal.Points
import proofs.«126557_j34342558499116_2_alg».proof.Proof.Gen.KernelIdeal.Frame
import proofs.«126557_j34342558499116_2_alg».proof.Proof.Gen.ReferenceIdeal
import proofs.«126557_j34342558499116_2_alg».proof.Proof.Gen.ReferenceIdeal.Read
import proofs.«126557_j34342558499116_2_alg».proof.Proof.Gen.Pre_finite_inputs
import proofs.«126557_j34342558499116_2_alg».proof.Proof.KernelRun
import proofs.«126557_j34342558499116_2_alg».proof.Proof.KernelValue
import proofs.«126557_j34342558499116_2_alg».proof.Proof.RefValue
import proofs.«126557_j34342558499116_2_alg».proof.Proof.Adjacency
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- Both programs end with the total and the three parts of the loss of the arguments they were launched with: the
    kernel by its run read back through its segments, the reference by its run read one operation at a time, the
    adjacency matrix the same term of the edge list on both sides. -/
theorem algebraic : Cert.algebraic_KernelIdeal_ReferenceIdeal := by
  intro m ρ m' ρ' _ hagree
  refine ⟨fun c _ => Cert.Loss.total (Cert.KernelIdeal.Results.pred m c) (Cert.KernelIdeal.Results.target m c)
            (Cert.KernelIdeal.Results.logits m c) (Cert.KernelIdeal.Results.adjacency m ρ c),
          fun c _ => Cert.Loss.mseLoss (Cert.KernelIdeal.Results.pred m c) (Cert.KernelIdeal.Results.target m c),
          fun c _ => Cert.Loss.corrLoss (Cert.KernelIdeal.Results.pred m c) (Cert.KernelIdeal.Results.target m c),
          fun c _ => Cert.Loss.interLoss (Cert.KernelIdeal.Results.logits m c) (Cert.KernelIdeal.Results.adjacency m ρ c),
          ?_, ?_⟩
  · refine (θ_run Cert.KernelIdeal.defs _ _).mono (fun _ h c => ?_) (Cert.KernelIdeal.Run.run_results (F := Ideal) m ρ)
    obtain ⟨h32, h2, h4, h27, ha⟩ := h c
    exact ⟨h32.trans (Cert.KernelIdeal.Results.end_total m ρ c), h2.trans (Cert.KernelIdeal.Results.end_mse m ρ c),
      h4.trans (Cert.KernelIdeal.Results.end_corr m ρ c), h27.trans (Cert.KernelIdeal.Results.end_inter m ρ c), ha⟩
  · refine (θ_run Cert.ReferenceIdeal.defs _ _).mono (fun _ h c => ?_) (Cert.ReferenceIdeal.Value.run (F := Ideal) m' ρ')
    obtain ⟨h67, h3, h31, h62, ha⟩ := h c
    obtain ⟨e0, e1, e2, e3⟩ := hagree c
    refine ⟨h67.trans ?_, h3.trans ?_, h31.trans ?_, h62.trans ?_, ha⟩
    · rw [Cert.ReferenceIdeal.Read.val_main_v67_eq, Cert.ReferenceIdeal.RefValue.total_eq, e0, e1, e2, e3,
        ← Cert.Adjacency.adjacency_eq m ρ c]
      rfl
    · rw [Cert.ReferenceIdeal.Read.val_main_v3_eq, Cert.ReferenceIdeal.RefValue.mse_eq, e0, e1]
      rfl
    · rw [Cert.ReferenceIdeal.Read.val_main_v31_eq, Cert.ReferenceIdeal.RefValue.corr_eq, e0, e1]
      rfl
    · rw [Cert.ReferenceIdeal.Read.val_main_v62_eq, Cert.ReferenceIdeal.RefValue.inter_eq, e2, e3,
        ← Cert.Adjacency.adjacency_eq m ρ c]
      rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
